-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S64x128 : Shape := ⟨2, ![64, 128]⟩
abbrev S64 : Shape := ⟨1, ![64]⟩
abbrev S40x64 : Shape := ⟨2, ![40, 64]⟩
abbrev S40 : Shape := ⟨1, ![40]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_
  bcast_S_S40x64 : S_.BroadcastsInDim S40x64 (![] : Fin 0 → Fin S40x64.rank)
  reducesTo_S40x64_S_d0_1 : S40x64.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S40x64 .f32) (main_arg6 : FVec F S40 .f32) (main_arg7 : FVec F S40x64 .f32) (main_v13 : IVec S_ 1) (main_v16 : IVec S64x128 1) : IVec S_ 1 :=
  let main_c_5 : IVec S_ 1 := constantI S_ 1 1#1
  let main_v17 : IVec S_ 1 := (fun x v => Host.reduce IntOp.andi x v reducesTo_S64x128_S_d0_1 h_S_) main_v16 main_c_5
  let main_v18 : IVec S_ 1 := andi main_v13 main_v17
  let main_v19 : FVec F S40x64 .f32 := Host.absf main_arg5
  let main_cst_6 : FVec F S_ .f32 := constant S_ .f32 0x7F800000#32
  let main_v20 : FVec F S40x64 .f32 := broadcastInDim S40x64 ![] bcast_S_S40x64 main_cst_6
  let main_v21 : IVec S40x64 1 := cmpf .olt main_v19 main_v20
  let main_c_7 : IVec S_ 1 := constantI S_ 1 1#1
  let main_v22 : IVec S_ 1 := (fun x v => Host.reduce IntOp.andi x v reducesTo_S40x64_S_d0_1 h_S_) main_v21 main_c_7
  let main_v23 : IVec S_ 1 := andi main_v18 main_v22
  let main_v24 : FVec F S40 .f32 := Host.absf main_arg6
  let main_cst_8 : FVec F S_ .f32 := constant S_ .f32 0x7F800000#32
  let main_v25 : FVec F S40 .f32 := broadcastInDim S40 ![] bcast_S_S40 main_cst_8
  let main_v26 : IVec S40 1 := cmpf .olt main_v24 main_v25
  let main_c_9 : IVec S_ 1 := constantI S_ 1 1#1
  let main_v27 : IVec S_ 1 := (fun x v => Host.reduce IntOp.andi x v reducesTo_S40_S_d0 h_S_) main_v26 main_c_9
  let main_v28 : IVec S_ 1 := andi main_v23 main_v27
  let main_v29 : FVec F S40x64 .f32 := Host.absf main_arg7
  let main_cst_10 : FVec F S_ .f32 := constant S_ .f32 0x7F800000#32
  let main_v30 : FVec F S40x64 .f32 := broadcastInDim S40x64 ![] bcast_S_S40x64 main_cst_10
  let main_v31 : IVec S40x64 1 := cmpf .olt main_v29 main_v30
  let main_c_11 : IVec S_ 1 := constantI S_ 1 1#1
  let main_v32 : IVec S_ 1 := (fun x v => Host.reduce IntOp.andi x v reducesTo_S40x64_S_d0_1 h_S_) main_v31 main_c_11
  let main_v33 : IVec S_ 1 := andi main_v28 main_v32
  main_v33

def fn {F : FTy → Type} [FloatOps F] (main_arg0 : FVec F S50000x128 .f32) (main_arg1 : IVec S2x800000 32) (main_arg2 : FVec F S64x128 .f32) (main_arg3 : FVec F S64 .f32) (main_arg4 : FVec F S64x128 .f32) (main_arg5 : FVec F S40x64 .f32) (main_arg6 : FVec F S40 .f32) (main_arg7 : FVec F S40x64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S64x128 .f32 := Host.absf main_arg2
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x128 .f32 := Host.absf main_arg4
  let main_cst_4 : FVec F S_ .f32 := constant S_ .f32 0x7F800000#32
  let main_v15 : FVec F S64x128 .f32 := broadcastInDim S64x128 ![] bcast_S_S64x128 main_cst_4
  let main_v16 : IVec S64x128 1 := cmpf .olt main_v14 main_v15
  fn_part1 (F := F) main_arg5 main_arg6 main_arg7 main_v13 main_v16
-- ==== Kernel.lean ====
abbrev S50000x128 : Shape := ⟨2, ![50000, 128]⟩
abbrev S2x800000 : Shape := ⟨2, ![2, 800000]⟩
abbrev S64x128 : Shape := ⟨2, ![64, 128]⟩
abbrev S64 : Shape := ⟨1, ![64]⟩
abbrev S40x64 : Shape := ⟨2, ![40, 64]⟩
abbrev S40 : Shape := ⟨1, ![40]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S128x64 : Shape := ⟨2, ![128, 64]⟩
abbrev S1x64 : Shape := ⟨2, ![1, 64]⟩
abbrev S50000x64 : Shape := ⟨2, ![50000, 64]⟩
abbrev S5000x128 : Shape := ⟨2, ![5000, 128]⟩
abbrev S5000x64 : Shape := ⟨2, ![5000, 64]⟩
abbrev S800000x64 : Shape := ⟨2, ![800000, 64]⟩
abbrev S64x40 : Shape := ⟨2, ![64, 40]⟩
abbrev S1x40 : Shape := ⟨2, ![1, 40]⟩
abbrev S50000x40 : Shape := ⟨2, ![50000, 40]⟩
abbrev S5000x40 : Shape := ⟨2, ![5000, 40]⟩
abbrev S5000 : Shape := ⟨1, ![5000]⟩
abbrev S5000x1 : Shape := ⟨2, ![5000, 1]⟩

abbrev nBuf : Space → Nat
  | .hbm => 70
  | .vmem => 18
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S64x128, .f32⟩
  | .hbm, ⟨3, _⟩ => ⟨S64, .f32⟩
  | .hbm, ⟨4, _⟩ => ⟨S64x128, .f32⟩
  | .hbm, ⟨5, _⟩ => ⟨S40x64, .f32⟩
  | .hbm, ⟨6, _⟩ => ⟨S40, .f32⟩
  | .hbm, ⟨7, _⟩ => ⟨S40x64, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x128, .f32⟩
  | .hbm, ⟨21, _⟩ => ⟨S_, .f32⟩
  | .hbm, ⟨22, _⟩ => ⟨S50000x128, .f32⟩
  | .hbm, ⟨23, _⟩ => ⟨S800000x1, .i32⟩
  | .hbm, ⟨24, _⟩ => ⟨S50000x128, .f32⟩
  | .hbm, ⟨25, _⟩ => ⟨S_, .f32⟩
  | .hbm, ⟨26, _⟩ => ⟨S800000, .f32⟩
  | .hbm, ⟨27, _⟩ => ⟨S_, .f32⟩
  | .hbm, ⟨28, _⟩ => ⟨S50000, .f32⟩
  | .hbm, ⟨29, _⟩ => ⟨S800000x1, .i32⟩
  | .hbm, ⟨30, _⟩ => ⟨S50000, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S50000x1, .f32⟩
  | .hbm, ⟨35, _⟩ => ⟨S50000x128, .f32⟩
  | .hbm, ⟨36, _⟩ => ⟨S50000x128, .f32⟩
  | .hbm, ⟨37, _⟩ => ⟨S128x64, .f32⟩
  | .hbm, ⟨38, _⟩ => ⟨S128x64, .f32⟩
  | .hbm, ⟨39, _⟩ => ⟨S1x64, .f32⟩
  | .hbm, ⟨40, _⟩ => ⟨S50000x64, .f32⟩
  | .hbm, ⟨41, _⟩ => ⟨S_, .i32⟩
  | .hbm, ⟨42, _⟩ => ⟨S800000, .i32⟩
  | .hbm, ⟨43, _⟩ => ⟨S800000, .i1⟩
  | .hbm, ⟨44, _⟩ => ⟨S_, .i32⟩
  | .hbm, ⟨45, _⟩ => ⟨S800000, .i32⟩
  | .hbm, ⟨46, _⟩ => ⟨S800000, .i32⟩
  | .hbm, ⟨47, _⟩ => ⟨S800000, .i32⟩
  | .hbm, ⟨48, _⟩ => ⟨S800000x1, .i32⟩
  | .hbm, ⟨49, _⟩ => ⟨S800000x64, .f32⟩
  | .hbm, ⟨50, _⟩ => ⟨S_, .f32⟩
  | .hbm, ⟨51, _⟩ => ⟨S50000x64, .f32⟩
  | .hbm, ⟨52, _⟩ => ⟨S800000x1, .i32⟩
  | .hbm, ⟨53, _⟩ => ⟨S50000x64, .f32⟩
  | .hbm, ⟨54, _⟩ => ⟨S_, .f32⟩
  | .hbm, ⟨55, _⟩ => ⟨S800000, .f32⟩
  | .hbm, ⟨56, _⟩ => ⟨S_, .f32⟩
  | .hbm, ⟨57, _⟩ => ⟨S50000, .f32⟩
  | .hbm, ⟨58, _⟩ => ⟨S800000x1, .i32⟩
  | .hbm, ⟨59, _⟩ => ⟨S50000, .f32⟩
  | .hbm, ⟨60, _⟩ => ⟨S_, .f32⟩
  | .hbm, ⟨61, _⟩ => ⟨S50000, .f32⟩
  | .hbm, ⟨62, _⟩ => ⟨S50000, .f32⟩
  | .hbm, ⟨63, _⟩ => ⟨S50000x1, .f32⟩
  | .hbm, ⟨64, _⟩ => ⟨S50000x64, .f32⟩
  | .hbm, ⟨65, _⟩ => ⟨S50000x64, .f32⟩
  | .hbm, ⟨66, _⟩ => ⟨S64x40, .f32⟩
  | .hbm, ⟨67, _⟩ => ⟨S64x40, .f32⟩
  | .hbm, ⟨68, _⟩ => ⟨S1x40, .f32⟩
  | .hbm, ⟨69, _⟩ => ⟨S50000x40, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x64, .f32⟩
  | .local _ .vmem, ⟨5, _⟩ => ⟨S128x64, .f32⟩
  | .local _ .vmem, ⟨6, _⟩ => ⟨S1x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S64x40, .f32⟩
  | .local _ .vmem, ⟨14, _⟩ => ⟨S64x40, .f32⟩
  | .local _ .vmem, ⟨15, _⟩ => ⟨S1x40, .f32⟩
  | .local _ .vmem, ⟨16, _⟩ => ⟨S5000x40, .f32⟩
  | .local _ .vmem, ⟨17, _⟩ => ⟨S5000x40, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_c_4 : Ref sig .tc := ⟨.hbm, 41, rfl⟩
abbrev main_v27 : Ref sig .tc := ⟨.hbm, 42, rfl⟩
abbrev main_v28 : Ref sig .tc := ⟨.hbm, 43, rfl⟩
abbrev main_c_5 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_6 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_7 : Ref sig .tc := ⟨.hbm, 54, rfl⟩
abbrev main_v37 : Ref sig .tc := ⟨.hbm, 55, rfl⟩
abbrev main_cst_8 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_9 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x40 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x40 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x40 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x40 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  transposes_S64x128_S128x64_1_0 : S64x128.Transposes [1, 0] S128x64
  shapeCasts_S64_S1x64 : S64.ShapeCasts S1x64
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  bcast_S_S50000x64 : S_.BroadcastsInDim S50000x64 (![] : Fin 0 → Fin S50000x64.rank)
  bcast_S50000x1_S50000x64_0_1 : S50000x1.BroadcastsInDim S50000x64 (![0, 1] : Fin 2 → Fin S50000x64.rank)
  transposes_S40x64_S64x40_1_0 : S40x64.Transposes [1, 0] S64x40
  shapeCasts_S40_S1x40 : S40.ShapeCasts S1x40
  shapeCasts_S5000x64_S5000x64 : S5000x64.ShapeCasts S5000x64
  inb_S64x40_S64x40_0_0 : ∀ a, (![0, 0] : Fin 2 → Nat) a + S64x40.size a ≤ S64x40.size a
  h_S64x40 : 0 < S64x40.numel
  shapeCasts_S64x40_S64x40 : S64x40.ShapeCasts S64x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S5000x40 : S1x40.Broadcasts S5000x40
  reduces_S5000x40_S5000 : S5000x40.Reduces [1] S5000
  shapeCasts_S5000_S5000x1 : S5000.ShapeCasts S5000x1
  broadcasts_S5000x1_S5000x40 : S5000x1.Broadcasts S5000x40
  inb_S5000x40_S5000x40_0_0 : ∀ a, (![0, 0] : Fin 2 → Nat) a + S5000x40.size a ≤ S5000x40.size a
  h_S5000x40 : 0 < S5000x40.numel
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S5000x128_S128x64_S5000x64_1_0_0_1_n_n_wf : DotDims.WF S5000x128 S128x64 S5000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S5000x64_S64x40_S5000x40_1_0_0_1_n_n_wf : DotDims.WF S5000x64 S64x40 S5000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x64.size a ≤ S128x64.size a
  hwx0_2 : ∀ i : grid0.Coords, EltTy.bits .f32 = 32 ∨ (Rect.block (s := S128x64) S128x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x64.size a ≤ S128x64.size a
  hwx0_3 : ∀ i : grid0.Coords, EltTy.bits .f32 = 32 ∨ (Rect.block (s := S128x64) S128x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x64.size a ≤ S50000x64.size a
  hwx0_5 : ∀ i : grid0.Coords, EltTy.bits .f32 = 32 ∨ (Rect.block (s := S50000x64) S5000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S50000x64.size a
  hwx1_1 : ∀ i : grid1.Coords, EltTy.bits .f32 = 32 ∨ (Rect.block (s := S50000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x40.size a ≤ S64x40.size a
  hwx1_2 : ∀ i : grid1.Coords, EltTy.bits .f32 = 32 ∨ (Rect.block (s := S64x40) S64x40.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x40.size a ≤ S64x40.size a
  hwx1_3 : ∀ i : grid1.Coords, EltTy.bits .f32 = 32 ∨ (Rect.block (s := S64x40) S64x40.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x40.size a ≤ S1x40.size a
  hwx1_4 : ∀ i : grid1.Coords, EltTy.bits .f32 = 32 ∨ (Rect.block (s := S1x40) S1x40.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x40.size a ≤ S50000x40.size a
  hwx1_5 : ∀ i : grid1.Coords, EltTy.bits .f32 = 32 ∨ (Rect.block (s := S50000x40) S5000x40.size (cc1_transform_5 i) (hinb1_5 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S5000x64_S64x40_S5000x40_1_0_0_1_n_n : DotDims S5000x64 S64x40 S5000x40 where
  lhsContracting := [1]
  rhsContracting := [0]
  lhsNonContracting := [0]
  rhsNonContracting := [1]
  lhsBatch := []
  rhsBatch := []
  wf := dot_S5000x64_S64x40_S5000x40_1_0_0_1_n_n_wf

abbrev win0_0 : Pipeline.Window sig grid0 :=
  Pipeline.Window.ofSpec (Memref.whole main_v22) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v23) S128x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v24) S128x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v25) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S5000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v45) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v46) S64x40.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v47) S64x40.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v48) S1x40.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v49) S5000x40.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S64x128 : Shape := ⟨2, ![64, 128]⟩
abbrev S64 : Shape := ⟨1, ![64]⟩
abbrev S40x64 : Shape := ⟨2, ![40, 64]⟩
abbrev S40 : Shape := ⟨1, ![40]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S128x64 : Shape := ⟨2, ![128, 64]⟩
abbrev S50000x64 : Shape := ⟨2, ![50000, 64]⟩
abbrev S1x64 : Shape := ⟨2, ![1, 64]⟩
abbrev S800000x64 : Shape := ⟨2, ![800000, 64]⟩
abbrev S64x40 : Shape := ⟨2, ![64, 40]⟩
abbrev S50000x40 : Shape := ⟨2, ![50000, 40]⟩
abbrev S1x40 : Shape := ⟨2, ![1, 40]⟩

abbrev nBuf : Space → Nat
  | .hbm => 96
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S64x128, .f32⟩
  | .hbm, ⟨3, _⟩ => ⟨S64, .f32⟩
  | .hbm, ⟨4, _⟩ => ⟨S64x128, .f32⟩
  | .hbm, ⟨5, _⟩ => ⟨S40x64, .f32⟩
  | .hbm, ⟨6, _⟩ => ⟨S40, .f32⟩
  | .hbm, ⟨7, _⟩ => ⟨S40x64, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x128, .f32⟩
  | .hbm, ⟨21, _⟩ => ⟨S_, .f32⟩
  | .hbm, ⟨22, _⟩ => ⟨S50000x128, .f32⟩
  | .hbm, ⟨23, _⟩ => ⟨S800000x1, .i32⟩
  | .hbm, ⟨24, _⟩ => ⟨S50000x128, .f32⟩
  | .hbm, ⟨25, _⟩ => ⟨S_, .f32⟩
  | .hbm, ⟨26, _⟩ => ⟨S800000, .f32⟩
  | .hbm, ⟨27, _⟩ => ⟨S_, .f32⟩
  | .hbm, ⟨28, _⟩ => ⟨S50000, .f32⟩
  | .hbm, ⟨29, _⟩ => ⟨S800000x1, .i32⟩
  | .hbm, ⟨30, _⟩ => ⟨S50000, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S50000x1, .f32⟩
  | .hbm, ⟨35, _⟩ => ⟨S50000x128, .f32⟩
  | .hbm, ⟨36, _⟩ => ⟨S50000x128, .f32⟩
  | .hbm, ⟨37, _⟩ => ⟨S128x64, .f32⟩
  | .hbm, ⟨38, _⟩ => ⟨S50000x64, .f32⟩
  | .hbm, ⟨39, _⟩ => ⟨S1x64, .f32⟩
  | .hbm, ⟨40, _⟩ => ⟨S50000x64, .f32⟩
  | .hbm, ⟨41, _⟩ => ⟨S50000x64, .f32⟩
  | .hbm, ⟨42, _⟩ => ⟨S128x64, .f32⟩
  | .hbm, ⟨43, _⟩ => ⟨S50000x64, .f32⟩
  | .hbm, ⟨44, _⟩ => ⟨S50000x64, .f32⟩
  | .hbm, ⟨45, _⟩ => ⟨S_, .f32⟩
  | .hbm, ⟨46, _⟩ => ⟨S50000x64, .f32⟩
  | .hbm, ⟨47, _⟩ => ⟨S50000x64, .f32⟩
  | .hbm, ⟨48, _⟩ => ⟨S_, .i32⟩
  | .hbm, ⟨49, _⟩ => ⟨S800000, .i32⟩
  | .hbm, ⟨50, _⟩ => ⟨S800000, .i1⟩
  | .hbm, ⟨51, _⟩ => ⟨S_, .i32⟩
  | .hbm, ⟨52, _⟩ => ⟨S800000, .i32⟩
  | .hbm, ⟨53, _⟩ => ⟨S800000, .i32⟩
  | .hbm, ⟨54, _⟩ => ⟨S800000, .i32⟩
  | .hbm, ⟨55, _⟩ => ⟨S800000x1, .i32⟩
  | .hbm, ⟨56, _⟩ => ⟨S800000x64, .f32⟩
  | .hbm, ⟨57, _⟩ => ⟨S_, .f32⟩
  | .hbm, ⟨58, _⟩ => ⟨S50000x64, .f32⟩
  | .hbm, ⟨59, _⟩ => ⟨S800000x1, .i32⟩
  | .hbm, ⟨60, _⟩ => ⟨S50000x64, .f32⟩
  | .hbm, ⟨61, _⟩ => ⟨S_, .f32⟩
  | .hbm, ⟨62, _⟩ => ⟨S800000, .f32⟩
  | .hbm, ⟨63, _⟩ => ⟨S_, .f32⟩
  | .hbm, ⟨64, _⟩ => ⟨S50000, .f32⟩
  | .hbm, ⟨65, _⟩ => ⟨S800000x1, .i32⟩
  | .hbm, ⟨66, _⟩ => ⟨S50000, .f32⟩
  | .hbm, ⟨67, _⟩ => ⟨S_, .f32⟩
  | .hbm, ⟨68, _⟩ => ⟨S50000, .f32⟩
  | .hbm, ⟨69, _⟩ => ⟨S50000, .f32⟩
  | .hbm, ⟨70, _⟩ => ⟨S50000x1, .f32⟩
  | .hbm, ⟨71, _⟩ => ⟨S50000x64, .f32⟩
  | .hbm, ⟨72, _⟩ => ⟨S50000x64, .f32⟩
  | .hbm, ⟨73, _⟩ => ⟨S64x40, .f32⟩
  | .hbm, ⟨74, _⟩ => ⟨S50000x40, .f32⟩
  | .hbm, ⟨75, _⟩ => ⟨S1x40, .f32⟩
  | .hbm, ⟨76, _⟩ => ⟨S50000x40, .f32⟩
  | .hbm, ⟨77, _⟩ => ⟨S50000x40, .f32⟩
  | .hbm, ⟨78, _⟩ => ⟨S64x40, .f32⟩
  | .hbm, ⟨79, _⟩ => ⟨S50000x40, .f32⟩
  | .hbm, ⟨80, _⟩ => ⟨S50000x40, .f32⟩
  | .hbm, ⟨81, _⟩ => ⟨S_, .f32⟩
  | .hbm, ⟨82, _⟩ => ⟨S50000, .f32⟩
  | .hbm, ⟨83, _⟩ => ⟨S_, .f32⟩
  | .hbm, ⟨84, _⟩ => ⟨S50000, .f32⟩
  | .hbm, ⟨85, _⟩ => ⟨S50000, .f32⟩
  | .hbm, ⟨86, _⟩ => ⟨S50000x1, .f32⟩
  | .hbm, ⟨87, _⟩ => ⟨S50000x40, .f32⟩
  | .hbm, ⟨88, _⟩ => ⟨S50000x40, .f32⟩
  | .hbm, ⟨89, _⟩ => ⟨S50000x40, .f32⟩
  | .hbm, ⟨90, _⟩ => ⟨S_, .f32⟩
  | .hbm, ⟨91, _⟩ => ⟨S50000, .f32⟩
  | .hbm, ⟨92, _⟩ => ⟨S50000x1, .f32⟩
  | .hbm, ⟨93, _⟩ => ⟨S50000x1, .f32⟩
  | .hbm, ⟨94, _⟩ => ⟨S50000x40, .f32⟩
  | .hbm, ⟨95, _⟩ => ⟨S50000x40, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_call0_cst : Ref sig .tc := ⟨.hbm, 45, rfl⟩
abbrev main_call0_v0 : Ref sig .tc := ⟨.hbm, 46, rfl⟩
abbrev main_v31 : Ref sig .tc := ⟨.hbm, 47, rfl⟩
abbrev main_c_4 : Ref sig .tc := ⟨.hbm, 48, rfl⟩
abbrev main_v32 : Ref sig .tc := ⟨.hbm, 49, rfl⟩
abbrev main_v33 : Ref sig .tc := ⟨.hbm, 50, rfl⟩
abbrev main_c_5 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_6 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_7 : Ref sig .tc := ⟨.hbm, 61, rfl⟩
abbrev main_v42 : Ref sig .tc := ⟨.hbm, 62, rfl⟩
abbrev main_cst_8 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_9 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_call1_cst : Ref sig .tc := ⟨.hbm, 81, rfl⟩
abbrev main_call1_v0 : Ref sig .tc := ⟨.hbm, 82, rfl⟩
abbrev main_call1_cst_0 : Ref sig .tc := ⟨.hbm, 83, rfl⟩
abbrev main_call1_v1 : Ref sig .tc := ⟨.hbm, 84, rfl⟩
abbrev main_call1_v2 : Ref sig .tc := ⟨.hbm, 85, rfl⟩
abbrev main_call1_v3 : Ref sig .tc := ⟨.hbm, 86, rfl⟩
abbrev main_call1_v4 : Ref sig .tc := ⟨.hbm, 87, rfl⟩
abbrev main_call1_v5 : Ref sig .tc := ⟨.hbm, 88, rfl⟩
abbrev main_call1_v6 : Ref sig .tc := ⟨.hbm, 89, rfl⟩
abbrev main_call1_cst_1 : Ref sig .tc := ⟨.hbm, 90, rfl⟩
abbrev main_call1_v7 : Ref sig .tc := ⟨.hbm, 91, rfl⟩
abbrev main_call1_v8 : Ref sig .tc := ⟨.hbm, 92, rfl⟩
abbrev main_call1_v9 : Ref sig .tc := ⟨.hbm, 93, rfl⟩
abbrev main_call1_v10 : Ref sig .tc := ⟨.hbm, 94, rfl⟩
abbrev main_v59 : Ref sig .tc := ⟨.hbm, 95, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  transposes_S64x128_S128x64_1_0 : S64x128.Transposes [1, 0] S128x64
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S50000x64 : S_.BroadcastsInDim S50000x64 (![] : Fin 0 → Fin S50000x64.rank)
  bcast_S50000x1_S50000x64_0_1 : S50000x1.BroadcastsInDim S50000x64 (![0, 1] : Fin 2 → Fin S50000x64.rank)
  transposes_S40x64_S64x40_1_0 : S40x64.Transposes [1, 0] S64x40
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  reducesTo_S50000x40_S50000_d1 : S50000x40.ReducesTo [1] S50000
  h_S_ : 0 < S_.numel
  bcast_S50000x1_S50000x40_0_1 : S50000x1.BroadcastsInDim S50000x40 (![0, 1] : Fin 2 → Fin S50000x40.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x64_S50000x64_1_0_0_1_n_n_wf : DotDims.WF S50000x128 S128x64 S50000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S50000x64_S64x40_S50000x40_1_0_0_1_n_n_wf : DotDims.WF S50000x64 S64x40 S50000x40 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x64_S64x40_S50000x40_1_0_0_1_n_n : DotDims S50000x64 S64x40 S50000x40 where
  lhsContracting := [1]
  rhsContracting := [0]
  lhsNonContracting := [0]
  rhsNonContracting := [1]
  lhsBatch := []
  rhsBatch := []
  wf := dot_S50000x64_S64x40_S50000x40_1_0_0_1_n_n_wf

class Facts : Prop extends Facts₀ where

variable [Facts]
-- ==== Proof.KRun.lean ====
/-
  The idealized kernel's whole run with its result array named: from any launch memory every weakly fair execution of
  @main terminates, nothing faulting, the argument arrays end as launched, and the result buffer ends holding what the
  second region's write-backs leave in it. The four segments of @main (host operations, first region, host operations,
  second region) are composed exactly as in the frame; only the reading of the final state differs: the result buffer
  is an unscoped buffer, so the final thread state fixes its contents too.
-/
import proofs.«122939_j71751723647376_1_alg».proof.Proof.Gen.KernelIdeal.Frame

set_option maxRecDepth 16384

noncomputable section

namespace Cert.KernelIdeal.Out

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of @main with the result buffer read off the last thread state: it holds the contents `W4` gives it, the
    value the second region's pipeline leaves in its output array. -/
theorem run_named : θ_run defs (onTc (τ := τ) (main (F := F))) ⟨m, fun _ => 0, ρ⟩ (fun r => ∀ c : Dev nD,
      r.2.mem ((c.tc : Thread nD τ).loc main_v49) = W4 m ρ c (Proc.devRef .tc main_v49)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v49 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

/-- The result buffer is the second region's output window's array, so what `W4` gives it is that array after the
    last grid point. -/
theorem W4_out (c : Dev nD) : W4 m ρ c (Proc.devRef .tc main_v49) = (dat1 (V3 m ρ) c).arrAt 5 cfg1.N :=
  W4_arr m ρ c 5

end Cert.KernelIdeal.Out

end
-- ==== Proof.KHost.lean ====
/-
  The host side of the idealized kernel's program, stage by stage. Before the first region the host computes, from
  the edge list, the source and destination node of every edge, gathers the source rows of the features, adds each
  gathered row into its destination's row, counts the edges arriving at each node, and divides each row sum by its
  count (at least one): the mean of a node's in-neighbours' features. Between the regions it does the same to the
  first layer's output. It also transposes the four weight matrices and reshapes the two bias vectors into one-row
  matrices. Each stage is named here as one function of its inputs, and each buffer the regions read is shown to
  hold its stage's value.
-/
import proofs.«122939_j71751723647376_1_alg».proof.Proof.Gen.KernelIdeal.Frame
import Idealize.ShloMosaic.Lib.StableHlo.Run

noncomputable section

namespace Cert.KernelIdeal.HostSide

open Cert.KernelIdeal Cert.KernelIdeal.Gen
open Idealize.ShloMosaic Idealize.ShloMosaic.TcCoe Idealize.SL.Sem Idealize.ShloMosaic.StableHlo

variable {F : FTy → Type} [FloatOps F]

/-- Row 0 of the edge list, as a vector: every edge's source node. -/
def srcVec (e : (⟨S2x800000, .i32⟩ : BufTy).Contents (Elt F)) : (⟨S800000, .i32⟩ : BufTy).Contents (Elt F) :=
  shapeCast S800000 (extractStridedSlice S1x800000 ![0, 0] e slices_S2x800000_S1x800000_0_0) shapeCasts_S1x800000_S800000

/-- Row 1 of the edge list, as a vector: every edge's destination node. -/
def dstVec (e : (⟨S2x800000, .i32⟩ : BufTy).Contents (Elt F)) : (⟨S800000, .i32⟩ : BufTy).Contents (Elt F) :=
  shapeCast S800000 (extractStridedSlice S1x800000 ![1, 0] e slices_S2x800000_S1x800000_1_0) shapeCasts_S1x800000_S800000

/-- A node vector as the one-column index array a gather takes, a negative entry counted from the end. -/
def wrapCol (s : (⟨S800000, .i32⟩ : BufTy).Contents (Elt F)) : (⟨S800000x1, .i32⟩ : BufTy).Contents (Elt F) :=
  broadcastInDim S800000x1 ![0] bcast_S800000_S800000x1_0
    (select (cmpi .slt s (broadcastInDim S800000 ![] bcast_S_S800000 (constantI S_ 32 0#32)))
      (addi s (broadcastInDim S800000 ![] bcast_S_S800000 (constantI S_ 32 50000#32))) s)

/-- The number of edges arriving at each node, at least one. -/
def degree (d : (⟨S800000, .i32⟩ : BufTy).Contents (Elt F)) : (⟨S50000, .f32⟩ : BufTy).Contents (Elt F) :=
  maximumf
    (Host.scatterAdd scatter_S50000_S800000x1_S800000_n_0_0_1 (broadcastInDim S50000 ![] bcast_S_S50000 (constant S_ .f32 0x00000000#32))
      (broadcastInDim S800000x1 ![0] bcast_S800000_S800000x1_0 d)
      (broadcastInDim S800000 ![] bcast_S_S800000 (constant S_ .f32 0x3F800000#32)))
    (broadcastInDim S50000 ![] bcast_S_S50000 (constant S_ .f32 0x3F800000#32))

/-- The mean of the in-neighbours' rows of a 128-column feature array. -/
def mean128 (x : (⟨S50000x128, .f32⟩ : BufTy).Contents (Elt F)) (s d : (⟨S800000, .i32⟩ : BufTy).Contents (Elt F)) :
    (⟨S50000x128, .f32⟩ : BufTy).Contents (Elt F) :=
  Host.divf
    (Host.scatterAdd scatter_S50000x128_S800000x1_S800000x128_1_0_0_1
      (broadcastInDim S50000x128 ![] bcast_S_S50000x128 (constant S_ .f32 0x00000000#32))
      (broadcastInDim S800000x1 ![0] bcast_S800000_S800000x1_0 d)
      (Host.gather gather_S50000x128_S800000x1_S800000x128_1_0_n_n_0_1_1128 x (wrapCol s)))
    (broadcastInDim S50000x128 ![0, 1] bcast_S50000x1_S50000x128_0_1 (broadcastInDim S50000x1 ![0] bcast_S50000_S50000x1_0 (degree d)))

/-- The mean of the in-neighbours' rows of a 64-column feature array. -/
def mean64 (x : (⟨S50000x64, .f32⟩ : BufTy).Contents (Elt F)) (s d : (⟨S800000, .i32⟩ : BufTy).Contents (Elt F)) :
    (⟨S50000x64, .f32⟩ : BufTy).Contents (Elt F) :=
  Host.divf
    (Host.scatterAdd scatter_S50000x64_S800000x1_S800000x64_1_0_0_1
      (broadcastInDim S50000x64 ![] bcast_S_S50000x64 (constant S_ .f32 0x00000000#32))
      (broadcastInDim S800000x1 ![0] bcast_S800000_S800000x1_0 d)
      (Host.gather gather_S50000x64_S800000x1_S800000x64_1_0_n_n_0_1_164 x (wrapCol s)))
    (broadcastInDim S50000x64 ![0, 1] bcast_S50000x1_S50000x64_0_1 (broadcastInDim S50000x1 ![0] bcast_S50000_S50000x1_0 (degree d)))

/-! ## The first stretch, from any contents `W` -/

section First
variable (W : Valuation τ sig (Elt F))

theorem first_src : StableHlo.after hostOps0 W (Proc.devRef .tc main_v1) = srcVec (W (Proc.devRef .tc main_arg1)) := by
  dsimp only [hostOps0]; after_results_simp <;> rfl
theorem first_dst : StableHlo.after hostOps0 W (Proc.devRef .tc main_v3) = dstVec (W (Proc.devRef .tc main_arg1)) := by
  dsimp only [hostOps0]; after_results_simp <;> rfl
theorem first_mean : StableHlo.after hostOps0 W (Proc.devRef .tc main_v22)
    = mean128 (W (Proc.devRef .tc main_arg0)) (srcVec (W (Proc.devRef .tc main_arg1))) (dstVec (W (Proc.devRef .tc main_arg1))) := by
  dsimp only [hostOps0]; after_results_simp <;> rfl
theorem first_x : StableHlo.after hostOps0 W (Proc.devRef .tc main_arg0) = W (Proc.devRef .tc main_arg0) := by
  dsimp only [hostOps0]; after_results_simp <;> rfl
theorem first_wl : StableHlo.after hostOps0 W (Proc.devRef .tc main_v23)
    = transpose S128x64 [1, 0] (W (Proc.devRef .tc main_arg2)) transposes_S64x128_S128x64_1_0 := by
  dsimp only [hostOps0]; after_results_simp <;> rfl
theorem first_wr : StableHlo.after hostOps0 W (Proc.devRef .tc main_v24)
    = transpose S128x64 [1, 0] (W (Proc.devRef .tc main_arg4)) transposes_S64x128_S128x64_1_0 := by
  dsimp only [hostOps0]; after_results_simp <;> rfl
theorem first_b : StableHlo.after hostOps0 W (Proc.devRef .tc main_v25)
    = shapeCast S1x64 (W (Proc.devRef .tc main_arg3)) shapeCasts_S64_S1x64 := by
  dsimp only [hostOps0]; after_results_simp <;> rfl

theorem first_keeps_w2l : StableHlo.after hostOps0 W (Proc.devRef .tc main_arg5) = W (Proc.devRef .tc main_arg5) := by
  dsimp only [hostOps0]; after_results_simp <;> rfl
theorem first_keeps_b2 : StableHlo.after hostOps0 W (Proc.devRef .tc main_arg6) = W (Proc.devRef .tc main_arg6) := by
  dsimp only [hostOps0]; after_results_simp <;> rfl
theorem first_keeps_w2r : StableHlo.after hostOps0 W (Proc.devRef .tc main_arg7) = W (Proc.devRef .tc main_arg7) := by
  dsimp only [hostOps0]; after_results_simp <;> rfl

end First

/-! ## The second stretch, from any contents `W` -/

section Second
variable (W : Valuation τ sig (Elt F))

theorem second_mean : StableHlo.after hostOps1 W (Proc.devRef .tc main_v45)
    = mean64 (W (Proc.devRef .tc main_v26)) (W (Proc.devRef .tc main_v1)) (W (Proc.devRef .tc main_v3)) := by
  dsimp only [hostOps1]; after_results_simp <;> rfl
theorem second_h : StableHlo.after hostOps1 W (Proc.devRef .tc main_v26) = W (Proc.devRef .tc main_v26) := by
  dsimp only [hostOps1]; after_results_simp <;> rfl
theorem second_wl : StableHlo.after hostOps1 W (Proc.devRef .tc main_v46)
    = transpose S64x40 [1, 0] (W (Proc.devRef .tc main_arg5)) transposes_S40x64_S64x40_1_0 := by
  dsimp only [hostOps1]; after_results_simp <;> rfl
theorem second_wr : StableHlo.after hostOps1 W (Proc.devRef .tc main_v47)
    = transpose S64x40 [1, 0] (W (Proc.devRef .tc main_arg7)) transposes_S40x64_S64x40_1_0 := by
  dsimp only [hostOps1]; after_results_simp <;> rfl
theorem second_b : StableHlo.after hostOps1 W (Proc.devRef .tc main_v48)
    = shapeCast S1x40 (W (Proc.devRef .tc main_arg6)) shapeCasts_S40_S1x40 := by
  dsimp only [hostOps1]; after_results_simp <;> rfl

end Second

end Cert.KernelIdeal.HostSide

end
-- ==== Proof.Spec.lean ====
/-
  The mathematics both programs compute, index by index on the extended reals.

  One layer takes, for every node `r`, the mean `a r` of its in-neighbours' feature rows and its own row `x r`, and
  forms for every output feature `j` the number  (Σ_k a r k · wl k j  +  b j)  +  Σ_k x r k · wr k j.
  The first layer clamps that number below at zero. The second layer turns each node's row `u` of such numbers into
  its logarithm of the softmax:  (u j − M) − log Σ_j' exp (u j' − M)  with  M  the larger of −∞ and the row's maximum.
  Addition of extended reals is commutative and associative, so the order in which the three summands of the
  linear part are added does not matter; nothing else is used, and no entry is assumed finite.
-/
import Idealize.ShloMosaic.Lib.ValueIdx
import Idealize.ShloMosaic.PureOps.Ideal
import Idealize.ShloMosaic.PureOps.Ideal.Laws

noncomputable section

namespace Sage

open Idealize.ShloMosaic Idealize.ShloMosaic.ValueIdx

/-- The word of −∞ read as an extended real. -/
abbrev negInf : EReal := Ideal.ofBits .f32 0xFF800000#32
/-- The zero word read as an extended real. -/
abbrev zeroW : EReal := Ideal.ofBits .f32 0x00000000#32

/-- The linear part of a layer at node `r` and output feature `j`. -/
def lin {N K J : ℕ} (a x : (⟨2, ![N, K]⟩ : Shape).Idx → EReal) (wl wr : (⟨2, ![K, J]⟩ : Shape).Idx → EReal)
    (b : (⟨1, ![J]⟩ : Shape).Idx → EReal) (r : Fin N) (j : Fin J) : EReal :=
  ((∑ k : Fin K, a (ix2 r k) * wl (ix2 k j)) + b (ix1 j)) + ∑ k : Fin K, x (ix2 r k) * wr (ix2 k j)

/-- The linear part depends only on row `r` of the two feature arrays: two pairs of arrays (of any heights) that agree
    on the rows in question give the same number. -/
theorem lin_congr_rows {N N' K J : ℕ} (a x : (⟨2, ![N, K]⟩ : Shape).Idx → EReal) (a' x' : (⟨2, ![N', K]⟩ : Shape).Idx → EReal)
    (wl wr : (⟨2, ![K, J]⟩ : Shape).Idx → EReal) (b : (⟨1, ![J]⟩ : Shape).Idx → EReal) (r : Fin N) (r' : Fin N') (j : Fin J)
    (ha : ∀ k, a' (ix2 r' k) = a (ix2 r k)) (hx : ∀ k, x' (ix2 r' k) = x (ix2 r k)) :
    lin a' x' wl wr b r' j = lin a x wl wr b r j := by
  unfold lin
  rw [Finset.sum_congr rfl fun k _ => congrArg (· * wl (ix2 k j)) (ha k),
    Finset.sum_congr rfl fun k _ => congrArg (· * wr (ix2 k j)) (hx k)]

/-- The three summands added in another order: the two products first (each onto a zero), the bias last. -/
theorem regroup (A B c : EReal) : ((zeroW + A) + (zeroW + B)) + c = (A + c) + B := by
  have hz : zeroW = 0 := Ideal.ofBits_zero_f32
  rw [hz, zero_add, zero_add, add_right_comm]

/-- The larger of −∞ and a row's maximum. -/
def rowTop {J : ℕ} (u : Fin J → EReal) : EReal := max negInf ((Finset.univ : Finset (Fin J)).fold max negInf u)

/-- The logarithm of the softmax of a row, at entry `j`. -/
def lsmRow {J : ℕ} (u : Fin J → EReal) (j : Fin J) : EReal :=
  (u j - rowTop u) - Ideal.log (∑ j' : Fin J, Ideal.exp (u j' - rowTop u))

/-- A layer with the clamp at zero, as a whole array. -/
def layerRelu {N K J : ℕ} (a x : (⟨2, ![N, K]⟩ : Shape).Idx → EReal) (wl wr : (⟨2, ![K, J]⟩ : Shape).Idx → EReal)
    (b : (⟨1, ![J]⟩ : Shape).Idx → EReal) : (⟨2, ![N, J]⟩ : Shape).Idx → EReal :=
  fun i => max (lin a x wl wr b (i 0) (i 1)) zeroW

/-- A layer followed by the row-wise logarithm of the softmax, as a whole array. -/
def layerLsm {N K J : ℕ} (a x : (⟨2, ![N, K]⟩ : Shape).Idx → EReal) (wl wr : (⟨2, ![K, J]⟩ : Shape).Idx → EReal)
    (b : (⟨1, ![J]⟩ : Shape).Idx → EReal) : (⟨2, ![N, J]⟩ : Shape).Idx → EReal :=
  fun i => lsmRow (fun j => lin a x wl wr b (i 0) j) (i 1)

theorem layerRelu_at {N K J : ℕ} (a x : (⟨2, ![N, K]⟩ : Shape).Idx → EReal) (wl wr : (⟨2, ![K, J]⟩ : Shape).Idx → EReal)
    (b : (⟨1, ![J]⟩ : Shape).Idx → EReal) (r : Fin N) (j : Fin J) :
    layerRelu a x wl wr b (ix2 r j) = max (lin a x wl wr b r j) zeroW := rfl

theorem layerLsm_at {N K J : ℕ} (a x : (⟨2, ![N, K]⟩ : Shape).Idx → EReal) (wl wr : (⟨2, ![K, J]⟩ : Shape).Idx → EReal)
    (b : (⟨1, ![J]⟩ : Shape).Idx → EReal) (r : Fin N) (j : Fin J) :
    layerLsm a x wl wr b (ix2 r j) = lsmRow (fun j' => lin a x wl wr b r j') j := rfl

end Sage

end
-- ==== Proof.LibPlainProduct.lean ====
import Idealize.ShloMosaic.Lib.StackMember
import Idealize.ShloMosaic.Lib.IdealHost
import Idealize.ShloMosaic.Lib.Pipeline.Value

/-!
# Plain matrix products, a transpose, and the logistic function spelled out, read at an index over the extended reals

A dot-dimensions record that contracts the first operand's second axis with the second operand's first axis and has
no batch axis is the plain product of an `m × k` by a `k × n` matrix, whatever proof of well-formedness it carries.
For such a record the host's `dot_general` at `(a, b)` is the sum over the contracted coordinate `c` of
`A (a, c) * B (c, b)`, and a kernel's `matmul` into an accumulator is the accumulator's entry plus that sum. A transposed
matrix at `(a, b)` is the matrix at `(b, a)`. And the reference's expansion of the logistic function into negate,
exponential, add and divide, with its two ones broadcast from a scalar constant, is `Ideal.logistic` of the element.
-/

namespace PlainProduct

open Idealize.ShloMosaic Idealize.ShloMosaic.ValueIdx

/-- The host's product, for any record that is the plain one. -/
theorem dotGeneral_at {m k n : ℕ} {φ₁ φ₂ : FTy} (d : DotDims ⟨2, ![m, k]⟩ ⟨2, ![k, n]⟩ ⟨2, ![m, n]⟩)
    (hd : d = DotDims.plain m k n) (prec : Option ContractPrecision)
    (A : FVec Ideal ⟨2, ![m, k]⟩ φ₁) (B : FVec Ideal ⟨2, ![k, n]⟩ φ₂) (a : Fin m) (b : Fin n) :
    Host.dotGeneral d prec A B (ix2 a b) = ∑ c : Fin k, A (ix2 a c) * B (ix2 c b) := by
  subst hd
  exact StackMember.dotGeneral_plain_apply prec A B a b

/-- A kernel's product into an accumulator, for any record that is the plain one: the accumulator's entry plus the
    sum. -/
theorem matmul_at {m k n : ℕ} {φ₁ φ₂ : FTy} (d : DotDims ⟨2, ![m, k]⟩ ⟨2, ![k, n]⟩ ⟨2, ![m, n]⟩)
    (hd : d = DotDims.plain m k n) (prec : Option ContractPrecision)
    (A : FVec Ideal ⟨2, ![m, k]⟩ φ₁) (B : FVec Ideal ⟨2, ![k, n]⟩ φ₂) (acc : FVec Ideal ⟨2, ![m, n]⟩ .f32) (a : Fin m) (b : Fin n) :
    matmul d prec A B acc (ix2 a b) = acc (ix2 a b) + ∑ c : Fin k, A (ix2 a c) * B (ix2 c b) := by
  have h := dotGeneral_at d hd prec A B a b
  show FloatOps.matmul d prec A B acc (ix2 a b) = _
  rw [Ideal.matmul_apply]
  refine congrArg (acc (ix2 a b) + ·) ?_
  rw [← h]
  show _ = FloatOps.dotGeneral d prec _ A B (ix2 a b)
  rw [Ideal.dotGeneral_apply]

/-- The reference's logistic function, spelled `1 / (1 + exp (-s))` with the ones broadcast from the scalar constant
    `1.0`, is the logistic function of the element. -/
theorem logistic_spelled_at {T : Shape} (h : (⟨0, ![]⟩ : Shape).BroadcastsInDim T ![]) (s : FVec Ideal T .f32) (i : T.Idx) :
    Host.divf (broadcastInDim T ![] h (constant (F := Ideal) ⟨0, ![]⟩ .f32 0x3F800000#32))
      (addf (broadcastInDim T ![] h (constant (F := Ideal) ⟨0, ![]⟩ .f32 0x3F800000#32)) (Host.exp (Host.negf s))) i
      = Ideal.logistic (s i) := by
  rw [hostDivf_apply, addf_apply, broadcastInDim_scalar_apply, constant_apply, Ideal.ofBits_one_f32]
  rfl

end PlainProduct
-- ==== Proof.KBody0.lean ====
/-
  The first kernel's body at one entry. From its five loaded blocks — the neighbours' mean and the node features
  (5000 rows of 128), the two transposed weight matrices (128 by 64) and the one-row bias — the body forms, at row `p`
  and column `q`, the two dot products of row `p` with column `q` of the weights (each accumulated onto zero; rounding
  the operands to a narrower format changes nothing on the extended reals), adds them, adds the bias entry `q`, and
  clamps below at zero: the layer's number at `(p, q)`, its three summands merely added in another order.
-/
import proofs.«122939_j71751723647376_1_alg».proof.Proof.Gen.KernelIdeal.Skeleton
import proofs.«122939_j71751723647376_1_alg».proof.Proof.Spec
import proofs.«122939_j71751723647376_1_alg».proof.Proof.LibPlainProduct
import Idealize.ShloMosaic.Lib.ValueLayout

noncomputable section

namespace Cert.KernelIdeal.Body0

open Cert.KernelIdeal Cert.KernelIdeal.Gen
open Idealize.ShloMosaic Idealize.ShloMosaic.ValueIdx

/-- A product of a 5000×128 block with a 128×64 matrix accumulated onto the zero array, at `(p, q)`. -/
theorem product_at (A : FVec Ideal S5000x128 .bf16) (B : FVec Ideal S128x64 .bf16) (p : Fin 5000) (q : Fin 64) :
    matmul dot_S5000x128_S128x64_S5000x64_1_0_0_1_n_n none A B (constant (F := Ideal) S5000x64 .f32 0x00000000#32) (ix2 p q)
      = Sage.zeroW + ∑ k : Fin 128, A (ix2 p k) * B (ix2 k q) :=
  PlainProduct.matmul_at dot_S5000x128_S128x64_S5000x64_1_0_0_1_n_n rfl none A B _ p q

/-- The body's stored value at `(p, q)`. -/
theorem payload_at (x0 x1 : Vec Ideal S5000x128 .f32) (x2 x3 : Vec Ideal S128x64 .f32) (x4 : Vec Ideal S1x64 .f32)
    (p : Fin 5000) (q : Fin 64) :
    k0_pay1 (F := Ideal) x0 x1 x2 x3 x4 (ix2 p q)
      = max (Sage.lin x0 x1 x2 x3 (fun j => x4 (ix2 (0 : Fin 1) (j 0))) p q) Sage.zeroW := by
  unfold k0_pay1
  show max ((matmul (F := Ideal) dot_S5000x128_S128x64_S5000x64_1_0_0_1_n_n none _ _ _ (ix2 p q)
      + matmul (F := Ideal) dot_S5000x128_S128x64_S5000x64_1_0_0_1_n_n none _ _ _ (ix2 p q))
      + broadcastTo S5000x64 (shapeCast S1x64 x4 _) _ (ix2 p q)) (Ideal.ofBits .f32 0x00000000#32) = _
  refine congrArg (max · Sage.zeroW) ?_
  refine ((congrArg₂ (· + ·) (congrArg₂ (· + ·) (product_at _ _ p q) (product_at _ _ p q))
    (broadcastTo_1b_ab_apply _ _ p q))).trans ?_
  refine (Sage.regroup _ _ _).trans ?_
  unfold Sage.lin
  refine congrArg₂ (· + ·) (congrArg₂ (· + ·) (Finset.sum_congr rfl fun k _ => ?_) ?_) (Finset.sum_congr rfl fun k _ => ?_)
  · show shapeCast S5000x128 x0 _ (ix2 p k) * shapeCast S128x64 x2 _ (ix2 k q) = _
    rw [shapeCast_self, shapeCast_self]
  · show shapeCast S1x64 x4 _ (ix2 (0 : Fin 1) q) = x4 (ix2 (0 : Fin 1) q)
    rw [shapeCast_self]
  · show x1 (ix2 p k) * shapeCast S128x64 x3 _ (ix2 k q) = _
    rw [shapeCast_self]

end Cert.KernelIdeal.Body0

end
-- ==== Proof.KRegion0.lean ====
/-
  Region 0 of the idealized kernel's program as one function of the arrays it is entered with. Its grid has ten
  points; point `t` reads rows 5000·t … 5000·t + 4999 of the neighbours' mean and of the features, the two weight
  matrices and the bias row whole, and writes the same rows of the output. What the body stores at `(p, q)` of its
  block is the layer's number at row 5000·t + p and column `q` — it depends on that one row only — so each block
  written back is the matching block of ONE whole-array function, and the ten blocks tile the output array.
-/
import proofs.«122939_j71751723647376_1_alg».proof.Proof.Gen.KernelIdeal.Frame
import proofs.«122939_j71751723647376_1_alg».proof.Proof.Spec
import proofs.«122939_j71751723647376_1_alg».proof.Proof.KBody0
import Idealize.ShloMosaic.Lib.Pipeline.Value

set_option maxRecDepth 16384

noncomputable section

namespace Cert.KernelIdeal.Region0

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The output array after the region, as a function of the arrays the region is entered with. -/
def G (c : Dev nD) : S50000x64.Idx → EReal :=
  Sage.layerRelu (V c main_v22) (V c main_arg0) (V c main_v23) (V c main_v24) (fun j => V c main_v25 (ix2 (0 : Fin 1) (j 0)))

/-- The printed index maps over the grid: the two row-blocked inputs move with the output's row block, every other
    block index is zero, and the output's row block at point `t` is `t`. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- One entry of one block, over plain variables: if the two row-blocked inputs' row `y 0` is row `i 0` of the arrays,
    the other three blocks are their arrays, and the columns agree, the body's stored value at `y` is the layer at `i`. -/
theorem point_eq (x0 x1 : Vec Ideal S5000x128 .f32) (x2 x3 : Vec Ideal S128x64 .f32) (x4 : Vec Ideal S1x64 .f32)
    (a x : S50000x128.Idx → EReal) (wl wr : S128x64.Idx → EReal) (b : S1x64.Idx → EReal)
    (p : Fin 5000) (q : Fin 64) (r : Fin 50000)
    (h0 : ∀ k : Fin 128, x0 (ix2 p k) = a (ix2 r k)) (h1 : ∀ k : Fin 128, x1 (ix2 p k) = x (ix2 r k))
    (h2 : x2 = wl) (h3 : x3 = wr) (h4 : x4 = b) :
    k0_pay1 (F := Ideal) x0 x1 x2 x3 x4 (ix2 p q) = Sage.layerRelu a x wl wr (fun j => b (ix2 (0 : Fin 1) (j 0))) (ix2 r q) := by
  subst h2 h3 h4
  rw [Body0.payload_at, Sage.layerRelu_at]
  rw [Sage.lin_congr_rows a x x0 x1 x2 x3 _ r p q h0 h1]

/-- WHAT POINT `t` WRITES BACK is block `t` of `G`. -/
theorem flushed_eq (c : Dev nD) (t : Fin cfg0.N) :
    (dat0 V c).flushed 5 t = ((cfg0.win 5).blk t).view.read (Elt Ideal) (G V c) := by
  show (cfg0.win 5).cut (grid0.coords t) ((dat0 V c).after 5 t) = _
  rw [after0_5]
  unfold out0_5
  rw [View.canon_unit_zero hz]
  simp only [View.ld_unit_zero (S := S5000x128) hz, View.ld_unit_zero (S := S128x64) hz, View.ld_unit_zero (S := S1x64) hz]
  obtain ⟨e00, e01, e10, e11, e20, e21, e30, e31, e40, e41, e50, e51⟩ := idx_facts t
  funext y
  obtain ⟨p, q, rfl⟩ : ∃ (p : Fin 5000) (q : Fin 64), y = ix2 p q := ⟨y 0, y 1, eq_ix2 y⟩
  have hr : t.val * 5000 + p.val < 50000 := by
    have ht : t.val < 10 := lt_of_lt_of_eq t.isLt (show cfg0.N = 10 from N_0)
    have hp := p.isLt; omega
  have hemb : ((cfg0.win 5).blk t).view.emb (ix2 p q) = ix2 (⟨t.val * 5000 + p.val, hr⟩ : Fin 50000) q := by
    funext ax; apply Fin.ext
    match ax with
    | ⟨0, _⟩ => show win0_5.index t (0 : Fin 2) * 5000 + 1 * p.val = t.val * 5000 + p.val; omega
    | ⟨1, _⟩ => show win0_5.index t (1 : Fin 2) * 64 + 1 * q.val = q.val; omega
  show k0_pay1 (F := Ideal) (iblk0 V c 0 t) (iblk0 V c 1 t) (iblk0 V c 2 t) (iblk0 V c 3 t) (iblk0 V c 4 t) (ix2 p q)
    = G V c (((cfg0.win 5).blk t).view.emb (ix2 p q))
  rw [hemb]
  refine point_eq (iblk0 V c 0 t) (iblk0 V c 1 t) (iblk0 V c 2 t) (iblk0 V c 3 t) (iblk0 V c 4 t)
    (V c main_v22) (V c main_arg0) (V c main_v23) (V c main_v24) (V c main_v25) p q ⟨t.val * 5000 + p.val, hr⟩ ?_ ?_ ?_ ?_ ?_
  · intro k
    show V c main_v22 (((cfg0.win 0).blk t).view.emb (ix2 p k)) = _
    refine congrArg (V c main_v22) (funext fun ax => Fin.ext ?_)
    match ax with
    | ⟨0, _⟩ => show win0_0.index t (0 : Fin 2) * 5000 + 1 * p.val = t.val * 5000 + p.val; omega
    | ⟨1, _⟩ => show win0_0.index t (1 : Fin 2) * 128 + 1 * k.val = k.val; omega
  · intro k
    show V c main_arg0 (((cfg0.win 1).blk t).view.emb (ix2 p k)) = _
    refine congrArg (V c main_arg0) (funext fun ax => Fin.ext ?_)
    match ax with
    | ⟨0, _⟩ => show win0_1.index t (0 : Fin 2) * 5000 + 1 * p.val = t.val * 5000 + p.val; omega
    | ⟨1, _⟩ => show win0_1.index t (1 : Fin 2) * 128 + 1 * k.val = k.val; omega
  · funext j
    show V c main_v23 (((cfg0.win 2).blk t).view.emb j) = V c main_v23 j
    refine congrArg (V c main_v23) (funext fun ax => Fin.ext ?_)
    match ax with
    | ⟨0, _⟩ => show win0_2.index t (0 : Fin 2) * 128 + 1 * (j 0).val = (j 0).val; omega
    | ⟨1, _⟩ => show win0_2.index t (1 : Fin 2) * 64 + 1 * (j 1).val = (j 1).val; omega
  · funext j
    show V c main_v24 (((cfg0.win 3).blk t).view.emb j) = V c main_v24 j
    refine congrArg (V c main_v24) (funext fun ax => Fin.ext ?_)
    match ax with
    | ⟨0, _⟩ => show win0_3.index t (0 : Fin 2) * 128 + 1 * (j 0).val = (j 0).val; omega
    | ⟨1, _⟩ => show win0_3.index t (1 : Fin 2) * 64 + 1 * (j 1).val = (j 1).val; omega
  · funext j
    show V c main_v25 (((cfg0.win 4).blk t).view.emb j) = V c main_v25 j
    refine congrArg (V c main_v25) (funext fun ax => Fin.ext ?_)
    match ax with
    | ⟨0, _⟩ => show win0_4.index t (0 : Fin 2) * 1 + 1 * (j 0).val = (j 0).val; omega
    | ⟨1, _⟩ => show win0_4.index t (1 : Fin 2) * 64 + 1 * (j 1).val = (j 1).val; omega

/-- An index of the output array is in point `t`'s block iff each coordinate is in the block's range on its axis. -/
theorem mem_blk (t : Fin cfg0.N) (i : S50000x64.Idx) :
    i ∈ ((cfg0.win 5).blk t).view.set ↔ ∀ a : Fin 2, win0_5.index t a * S5000x64.size a ≤ (i a).val ∧ (i a).val < win0_5.index t a * S5000x64.size a + S5000x64.size a := by
  show i ∈ ((View.whole main_v26).slice (win0_5.rect t)).set ↔ _
  rw [View.set_slice_whole, Rect.mem_set_unit]
  exact Iff.rfl

/-- Every index of the output array is in the block of the point its row falls in. -/
theorem cover (i : S50000x64.Idx) : ∃ t : Fin cfg0.N, (cfg0.win 5).flush t = true ∧ i ∈ ((cfg0.win 5).blk t).view.set := by
  have hi0 : (i 0).val < 50000 := (i 0).isLt
  have hi1 : (i 1).val < 64 := (i 1).isLt
  have hN : cfg0.N = 10 := N_0
  refine ⟨⟨(i 0).val / 5000, by rw [hN]; omega⟩, flush0_5 _, ?_⟩
  obtain ⟨e00, e01, e10, e11, e20, e21, e30, e31, e40, e41, e50, e51⟩ := idx_facts ⟨(i 0).val / 5000, by rw [hN]; omega⟩
  rw [mem_blk]
  intro a
  match a with
  | ⟨0, _⟩ =>
    show win0_5.index _ (0 : Fin 2) * 5000 ≤ (i 0).val ∧ (i 0).val < win0_5.index _ (0 : Fin 2) * 5000 + 5000
    rw [e50]; show (i 0).val / 5000 * 5000 ≤ (i 0).val ∧ (i 0).val < (i 0).val / 5000 * 5000 + 5000; omega
  | ⟨1, _⟩ =>
    show win0_5.index _ (1 : Fin 2) * 64 ≤ (i 1).val ∧ (i 1).val < win0_5.index _ (1 : Fin 2) * 64 + 64
    rw [e51]; omega

/-- THE OUTPUT ARRAY after the region's last point is `G` of the arrays it was entered with. -/
theorem final (c : Dev nD) : (dat0 V c).arrAt 5 cfg0.N = G V c :=
  (dat0 V c).arrAt_eq_of_cover 5 (G V c) (fun t _ => flushed_eq V c t) (cover)

end Cert.KernelIdeal.Region0

end
-- ==== Proof.LibColumn.lean ====
/-
  Column-shaped layout operations read at an index: a column [a, 1] flattened to [a] and back, a column
  broadcast along its rows to [a, b], and a lane reduction of an [a, b] array read at a row as a sum or a
  maximum over the row. Each says which single element (or which row) of the operand an element of the result reads.
-/
import Idealize.ShloMosaic.Lib.ValueIdx
import Idealize.ShloMosaic.Lib.ValueLayout
import Idealize.ShloMosaic.Lib.Pipeline.Value
import Idealize.ShloMosaic.PureOps.Ideal.Laws

noncomputable section

namespace Idealize.ShloMosaic.ColumnIdx

open Idealize.ShloMosaic ValueIdx

variable {α : Type}

/-- A column `[a, 1]` cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A lane sum of an `[a, b]` array (a `multi_reduction <add>` over axis 1 from the zero word), read at row `p`
    at the ideal instance: the sum of the row. -/
theorem rowSum_apply {a b : ℕ} (src : FVec Ideal ⟨2, ![a, b]⟩ .f32) (h : Shape.Reduces ⟨2, ![a, b]⟩ [1] ⟨1, ![a]⟩)
    (hφ : FKind.Formats .f32) (hacc : (0x00000000#32 : BitVec 32) = FKind.add.neutral .f32 hφ) (p : Fin a) :
    multiReduction .add [1] ⟨1, ![a]⟩ src 0x00000000#32 h hφ hacc (ix1 p) = ∑ k : Fin b, src (ix2 p k) :=
  (Ideal.multiReduction_add_single src _ h hφ hacc (ix1 p)).trans
    (Finset.sum_congr rfl fun k _ => congrArg src (funext fun ax => Fin.ext (by
      match ax with
      | ⟨0, _⟩ => rfl
      | ⟨1, _⟩ => rfl)))

/-- A lane maximum of an `[a, b]` array (a `multi_reduction <maximumf>` over axis 1 from the word of -∞), read at row
    `p` at the ideal instance: the fold of `max` over the row, from -∞. -/
theorem rowMax_apply {a b : ℕ} (src : FVec Ideal ⟨2, ![a, b]⟩ .f32) (h : Shape.Reduces ⟨2, ![a, b]⟩ [1] ⟨1, ![a]⟩)
    (hφ : FKind.Formats .f32) (hacc : (0xFF800000#32 : BitVec 32) = FKind.maximumf.neutral .f32 hφ) (p : Fin a) :
    multiReduction .maximumf [1] ⟨1, ![a]⟩ src 0xFF800000#32 h hφ hacc (ix1 p)
      = (Finset.univ : Finset (Fin b)).fold max (Ideal.ofBits .f32 0xFF800000#32) (fun k => src (ix2 p k)) :=
  (Ideal.multiReduction_maximumf_single src _ h hφ hacc (ix1 p)).trans
    (congrArg ((Finset.univ : Finset (Fin b)).fold max (Ideal.ofBits .f32 0xFF800000#32)) (funext fun k =>
      congrArg src (funext fun ax => Fin.ext (by
        match ax with
        | ⟨0, _⟩ => rfl
        | ⟨1, _⟩ => rfl))))

/-- Seven columns `[a, 1]` joined side by side into `[a, 7]`: entry `(p, k)` is column `k`'s entry of row `p`. -/
theorem concat7_apply {a : ℕ} (x0 x1 x2 x3 x4 x5 x6 : (⟨2, ![a, 1]⟩ : Shape).Idx → α)
    (h : Shape.Concatenates (([⟨⟨2, ![a, 1]⟩, x0⟩, ⟨⟨2, ![a, 1]⟩, x1⟩, ⟨⟨2, ![a, 1]⟩, x2⟩, ⟨⟨2, ![a, 1]⟩, x3⟩, ⟨⟨2, ![a, 1]⟩, x4⟩,
      ⟨⟨2, ![a, 1]⟩, x5⟩, ⟨⟨2, ![a, 1]⟩, x6⟩] : List ((s : Shape) × (s.Idx → α))).map (·.1)) ⟨2, ![a, 7]⟩ 1)
    (p : Fin a) (k : Fin 7) :
    concatenate ⟨2, ![a, 7]⟩ 1 [⟨⟨2, ![a, 1]⟩, x0⟩, ⟨⟨2, ![a, 1]⟩, x1⟩, ⟨⟨2, ![a, 1]⟩, x2⟩, ⟨⟨2, ![a, 1]⟩, x3⟩, ⟨⟨2, ![a, 1]⟩, x4⟩,
      ⟨⟨2, ![a, 1]⟩, x5⟩, ⟨⟨2, ![a, 1]⟩, x6⟩] h (ix2 p k) = (![x0, x1, x2, x3, x4, x5, x6] k) (ix2 p (0 : Fin 1)) := by
  have hi : ∀ (n : Fin 7) (b : Fin (⟨2, ![a, 1]⟩ : Shape).rank), b.cast (rfl : (2 : ℕ) = 2) ≠ (1 : Fin 2) →
      ((ix2 p (0 : Fin 1) : (⟨2, ![a, 1]⟩ : Shape).Idx) b).val = ((ix2 p n : (⟨2, ![a, 7]⟩ : Shape).Idx) (b.cast rfl)).val := by
    intro n b hb
    match b with
    | ⟨0, _⟩ => rfl
    | ⟨1, _⟩ => exact absurd rfl hb
  match k with
  | ⟨0, _⟩ => exact concatenate_apply_piece 1 _ h _ 0 (by simp) _ x0 rfl rfl 0 rfl (ix2 p (0 : Fin 1)) (hi 0) rfl
  | ⟨1, _⟩ => exact concatenate_apply_piece 1 _ h _ 1 (by simp) _ x1 rfl rfl 1 rfl (ix2 p (0 : Fin 1)) (hi 1) rfl
  | ⟨2, _⟩ => exact concatenate_apply_piece 1 _ h _ 2 (by simp) _ x2 rfl rfl 2 rfl (ix2 p (0 : Fin 1)) (hi 2) rfl
  | ⟨3, _⟩ => exact concatenate_apply_piece 1 _ h _ 3 (by simp) _ x3 rfl rfl 3 rfl (ix2 p (0 : Fin 1)) (hi 3) rfl
  | ⟨4, _⟩ => exact concatenate_apply_piece 1 _ h _ 4 (by simp) _ x4 rfl rfl 4 rfl (ix2 p (0 : Fin 1)) (hi 4) rfl
  | ⟨5, _⟩ => exact concatenate_apply_piece 1 _ h _ 5 (by simp) _ x5 rfl rfl 5 rfl (ix2 p (0 : Fin 1)) (hi 5) rfl
  | ⟨6, _⟩ => exact concatenate_apply_piece 1 _ h _ 6 (by simp) _ x6 rfl rfl 6 rfl (ix2 p (0 : Fin 1)) (hi 6) rfl

end Idealize.ShloMosaic.ColumnIdx

end
-- ==== Proof.KBody1.lean ====
/-
  The second kernel's body at one entry. From its five loaded blocks — the neighbours' mean and the first layer's
  output (5000 rows of 64), the two transposed weight matrices (64 by 40) and the one-row bias — the body forms the
  layer's numbers `u` of its 5000 rows (two dot products accumulated onto zero, added, plus the bias), then, row by
  row: the larger `M` of −∞ and the row's maximum (a lane maximum from −∞, as a column, broadcast back along the
  row), the shifted row `u − M`, the sum of its exponentials (a lane sum from zero), that sum's logarithm broadcast
  back, and the difference. At `(p, q)` that is the logarithm of the softmax of row `p` of `u`, at `q`.
-/
import proofs.«122939_j71751723647376_1_alg».proof.Proof.Gen.KernelIdeal.Skeleton
import proofs.«122939_j71751723647376_1_alg».proof.Proof.Spec
import proofs.«122939_j71751723647376_1_alg».proof.Proof.LibPlainProduct
import proofs.«122939_j71751723647376_1_alg».proof.Proof.LibColumn
import Idealize.ShloMosaic.Lib.ValueLayout

noncomputable section

namespace Cert.KernelIdeal.Body1

open Cert.KernelIdeal Cert.KernelIdeal.Gen
open Idealize.ShloMosaic Idealize.ShloMosaic.ValueIdx

/-- A product of a 5000×64 block with a 64×40 matrix accumulated onto the zero array, at `(p, q)`. -/
theorem product_at (A : FVec Ideal S5000x64 .bf16) (B : FVec Ideal S64x40 .bf16) (p : Fin 5000) (q : Fin 40) :
    matmul dot_S5000x64_S64x40_S5000x40_1_0_0_1_n_n none A B (constant (F := Ideal) S5000x40 .f32 0x00000000#32) (ix2 p q)
      = Sage.zeroW + ∑ k : Fin 64, A (ix2 p k) * B (ix2 k q) :=
  PlainProduct.matmul_at dot_S5000x64_S64x40_S5000x40_1_0_0_1_n_n rfl none A B _ p q

/-- The block of the layer's numbers: the two products added, plus the bias row along the rows. -/
def linBlk (x0 x1 : Vec Ideal S5000x64 .f32) (x2 x3 : Vec Ideal S64x40 .f32) (x4 : Vec Ideal S1x40 .f32) : FVec Ideal S5000x40 .f32 :=
  addf
    (addf
      (matmul dot_S5000x64_S64x40_S5000x40_1_0_0_1_n_n none (truncf .bf16 (shapeCast S5000x64 x0 shapeCasts_S5000x64_S5000x64) bitsLt_bf16_f32)
        (truncf .bf16 (shapeCast S64x40 x2 shapeCasts_S64x40_S64x40) bitsLt_bf16_f32) (constant S5000x40 .f32 0x00000000#32))
      (matmul dot_S5000x64_S64x40_S5000x40_1_0_0_1_n_n none (truncf .bf16 (shapeCast S5000x64 x1 shapeCasts_S5000x64_S5000x64) bitsLt_bf16_f32)
        (truncf .bf16 (shapeCast S64x40 x3 shapeCasts_S64x40_S64x40) bitsLt_bf16_f32) (constant S5000x40 .f32 0x00000000#32)))
    (broadcastTo S5000x40 (shapeCast S1x40 x4 shapeCasts_S1x40_S1x40) broadcasts_S1x40_S5000x40)

/-- The larger of −∞ and each row's maximum, as a vector over the rows. -/
def topVec (w : FVec Ideal S5000x40 .f32) : FVec Ideal S5000 .f32 :=
  maximumf (broadcast S5000 (Scalar.ofBits (F := Ideal) .f32 0xFF800000#32))
    (multiReduction .maximumf [1] S5000 w 0xFF800000#32 reduces_S5000x40_S5000 (.inl rfl) rfl)

/-- Each row minus its top. -/
def shiftBlk (w : FVec Ideal S5000x40 .f32) : FVec Ideal S5000x40 .f32 :=
  subf w (broadcastTo S5000x40 (shapeCast S5000x1 (topVec w) shapeCasts_S5000_S5000x1) broadcasts_S5000x1_S5000x40)

/-- The row-wise logarithm of the softmax of a block. -/
def lsmBlk (w : FVec Ideal S5000x40 .f32) : FVec Ideal S5000x40 .f32 :=
  subf (shiftBlk w)
    (broadcastTo S5000x40
      (log (shapeCast S5000x1 (multiReduction .add [1] S5000 (exp (shiftBlk w)) 0x00000000#32 reduces_S5000x40_S5000 (.inl rfl) rfl)
        shapeCasts_S5000_S5000x1))
      broadcasts_S5000x1_S5000x40)

/-- The body's stored value is the logarithm of the softmax of the block of the layer's numbers. -/
theorem payload_eq (x0 x1 : Vec Ideal S5000x64 .f32) (x2 x3 : Vec Ideal S64x40 .f32) (x4 : Vec Ideal S1x40 .f32) :
    k1_pay1 (F := Ideal) x0 x1 x2 x3 x4 = lsmBlk (linBlk x0 x1 x2 x3 x4) := rfl

/-- The layer's number at `(p, j)` of the block. -/
theorem linBlk_at (x0 x1 : Vec Ideal S5000x64 .f32) (x2 x3 : Vec Ideal S64x40 .f32) (x4 : Vec Ideal S1x40 .f32)
    (p : Fin 5000) (j : Fin 40) :
    linBlk x0 x1 x2 x3 x4 (ix2 p j) = Sage.lin x0 x1 x2 x3 (fun i => x4 (ix2 (0 : Fin 1) (i 0))) p j := by
  unfold linBlk
  show (matmul (F := Ideal) dot_S5000x64_S64x40_S5000x40_1_0_0_1_n_n none _ _ _ (ix2 p j)
      + matmul (F := Ideal) dot_S5000x64_S64x40_S5000x40_1_0_0_1_n_n none _ _ _ (ix2 p j))
      + broadcastTo S5000x40 (shapeCast S1x40 x4 _) _ (ix2 p j) = _
  refine ((congrArg₂ (· + ·) (congrArg₂ (· + ·) (product_at _ _ p j) (product_at _ _ p j))
    (broadcastTo_1b_ab_apply _ _ p j))).trans ?_
  refine (Sage.regroup _ _ _).trans ?_
  unfold Sage.lin
  refine congrArg₂ (· + ·) (congrArg₂ (· + ·) (Finset.sum_congr rfl fun k _ => ?_) ?_) (Finset.sum_congr rfl fun k _ => ?_)
  · show shapeCast S5000x64 x0 _ (ix2 p k) * shapeCast S64x40 x2 _ (ix2 k j) = _
    rw [shapeCast_self, shapeCast_self]
  · show shapeCast S1x40 x4 _ (ix2 (0 : Fin 1) j) = x4 (ix2 (0 : Fin 1) j)
    rw [shapeCast_self]
  · show shapeCast S5000x64 x1 _ (ix2 p k) * shapeCast S64x40 x3 _ (ix2 k j) = _
    rw [shapeCast_self, shapeCast_self]

/-- A row's top, read at the row. -/
theorem topVec_at (w : FVec Ideal S5000x40 .f32) (p : Fin 5000) : topVec w (ix1 p) = Sage.rowTop (fun j => w (ix2 p j)) := by
  unfold topVec Sage.rowTop
  show max (Ideal.ofBits .f32 0xFF800000#32) (multiReduction .maximumf [1] S5000 w 0xFF800000#32 _ _ _ (ix1 p)) = _
  exact congrArg (max (Ideal.ofBits .f32 0xFF800000#32)) (ColumnIdx.rowMax_apply w _ _ _ p)

/-- A shifted entry. -/
theorem shiftBlk_at (w : FVec Ideal S5000x40 .f32) (p : Fin 5000) (j : Fin 40) :
    shiftBlk w (ix2 p j) = w (ix2 p j) - Sage.rowTop (fun j => w (ix2 p j)) := by
  unfold shiftBlk
  show w (ix2 p j) - broadcastTo S5000x40 (shapeCast S5000x1 (topVec w) _) _ (ix2 p j) = _
  refine congrArg (w (ix2 p j) - ·) ?_
  exact (ColumnIdx.broadcastTo_a1_ab_apply _ _ p j).trans ((ColumnIdx.shapeCast_a_a1_apply (topVec w) _ p 0).trans (topVec_at w p))

/-- The logarithm of the softmax of a block at `(p, q)` is that of its row `p`, at `q`. -/
theorem lsmBlk_at (w : FVec Ideal S5000x40 .f32) (p : Fin 5000) (q : Fin 40) :
    lsmBlk w (ix2 p q) = Sage.lsmRow (fun j => w (ix2 p j)) q := by
  unfold lsmBlk Sage.lsmRow
  show shiftBlk w (ix2 p q) - broadcastTo S5000x40 (log (shapeCast S5000x1 (multiReduction .add [1] S5000 (exp (shiftBlk w)) 0x00000000#32 _ _ _) _)) _ (ix2 p q) = _
  refine congrArg₂ (· - ·) (shiftBlk_at w p q) ?_
  refine (ColumnIdx.broadcastTo_a1_ab_apply _ _ p q).trans ?_
  show Ideal.log (shapeCast S5000x1 (multiReduction .add [1] S5000 (exp (shiftBlk w)) 0x00000000#32 _ _ _) _ (ix2 p (0 : Fin 1))) = _
  refine congrArg Ideal.log ?_
  refine (ColumnIdx.shapeCast_a_a1_apply _ _ p 0).trans ?_
  refine (ColumnIdx.rowSum_apply (exp (shiftBlk w)) _ _ _ p).trans ?_
  refine Finset.sum_congr rfl fun k _ => ?_
  show Ideal.exp (shiftBlk w (ix2 p k)) = _
  rw [shiftBlk_at]

/-- The body's stored value at `(p, q)`. -/
theorem payload_at (x0 x1 : Vec Ideal S5000x64 .f32) (x2 x3 : Vec Ideal S64x40 .f32) (x4 : Vec Ideal S1x40 .f32)
    (p : Fin 5000) (q : Fin 40) :
    k1_pay1 (F := Ideal) x0 x1 x2 x3 x4 (ix2 p q)
      = Sage.lsmRow (fun j => Sage.lin x0 x1 x2 x3 (fun i => x4 (ix2 (0 : Fin 1) (i 0))) p j) q := by
  rw [payload_eq, lsmBlk_at]
  exact congrArg (Sage.lsmRow · q) (funext fun j => linBlk_at x0 x1 x2 x3 x4 p j)

end Cert.KernelIdeal.Body1

end
-- ==== Proof.KRegion1.lean ====
/-
  Region 1 of the idealized kernel's program as one function of the arrays it is entered with. Its grid has ten
  points; point `t` reads rows 5000·t … 5000·t + 4999 of the neighbours' mean and of the features, the two weight
  matrices and the bias row whole, and writes the same rows of the output. What the body stores at `(p, q)` of its
  block is the layer's number at row 5000·t + p and column `q` — it depends on that one row only — so each block
  written back is the matching block of ONE whole-array function, and the ten blocks tile the output array.
-/
import proofs.«122939_j71751723647376_1_alg».proof.Proof.Gen.KernelIdeal.Frame
import proofs.«122939_j71751723647376_1_alg».proof.Proof.Spec
import proofs.«122939_j71751723647376_1_alg».proof.Proof.KBody1
import Idealize.ShloMosaic.Lib.Pipeline.Value

set_option maxRecDepth 16384

noncomputable section

namespace Cert.KernelIdeal.Region1

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The output array after the region, as a function of the arrays the region is entered with. -/
def G (c : Dev nD) : S50000x40.Idx → EReal :=
  Sage.layerLsm (V c main_v45) (V c main_v26) (V c main_v46) (V c main_v47) (fun j => V c main_v48 (ix2 (0 : Fin 1) (j 0)))

/-- The printed index maps over the grid: the two row-blocked inputs move with the output's row block, every other
    block index is zero, and the output's row block at point `t` is `t`. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- One entry of one block, over plain variables: if the two row-blocked inputs' row `y 0` is row `i 0` of the arrays,
    the other three blocks are their arrays, and the columns agree, the body's stored value at `y` is the layer at `i`. -/
theorem point_eq (x0 x1 : Vec Ideal S5000x64 .f32) (x2 x3 : Vec Ideal S64x40 .f32) (x4 : Vec Ideal S1x40 .f32)
    (a x : S50000x64.Idx → EReal) (wl wr : S64x40.Idx → EReal) (b : S1x40.Idx → EReal)
    (p : Fin 5000) (q : Fin 40) (r : Fin 50000)
    (h0 : ∀ k : Fin 64, x0 (ix2 p k) = a (ix2 r k)) (h1 : ∀ k : Fin 64, x1 (ix2 p k) = x (ix2 r k))
    (h2 : x2 = wl) (h3 : x3 = wr) (h4 : x4 = b) :
    k1_pay1 (F := Ideal) x0 x1 x2 x3 x4 (ix2 p q) = Sage.layerLsm a x wl wr (fun j => b (ix2 (0 : Fin 1) (j 0))) (ix2 r q) := by
  subst h2 h3 h4
  rw [Body1.payload_at, Sage.layerLsm_at]
  refine congrArg (Sage.lsmRow · q) (funext fun j' => ?_)
  exact Sage.lin_congr_rows a x x0 x1 x2 x3 _ r p j' h0 h1

/-- WHAT POINT `t` WRITES BACK is block `t` of `G`. -/
theorem flushed_eq (c : Dev nD) (t : Fin cfg1.N) :
    (dat1 V c).flushed 5 t = ((cfg1.win 5).blk t).view.read (Elt Ideal) (G V c) := by
  show (cfg1.win 5).cut (grid1.coords t) ((dat1 V c).after 5 t) = _
  rw [after1_5]
  unfold out1_5
  rw [View.canon_unit_zero hz]
  simp only [View.ld_unit_zero (S := S5000x64) hz, View.ld_unit_zero (S := S64x40) hz, View.ld_unit_zero (S := S1x40) hz]
  obtain ⟨e00, e01, e10, e11, e20, e21, e30, e31, e40, e41, e50, e51⟩ := idx_facts t
  funext y
  obtain ⟨p, q, rfl⟩ : ∃ (p : Fin 5000) (q : Fin 40), y = ix2 p q := ⟨y 0, y 1, eq_ix2 y⟩
  have hr : t.val * 5000 + p.val < 50000 := by
    have ht : t.val < 10 := lt_of_lt_of_eq t.isLt (show cfg1.N = 10 from N_1)
    have hp := p.isLt; omega
  have hemb : ((cfg1.win 5).blk t).view.emb (ix2 p q) = ix2 (⟨t.val * 5000 + p.val, hr⟩ : Fin 50000) q := by
    funext ax; apply Fin.ext
    match ax with
    | ⟨0, _⟩ => show win1_5.index t (0 : Fin 2) * 5000 + 1 * p.val = t.val * 5000 + p.val; omega
    | ⟨1, _⟩ => show win1_5.index t (1 : Fin 2) * 40 + 1 * q.val = q.val; omega
  show k1_pay1 (F := Ideal) (iblk1 V c 0 t) (iblk1 V c 1 t) (iblk1 V c 2 t) (iblk1 V c 3 t) (iblk1 V c 4 t) (ix2 p q)
    = G V c (((cfg1.win 5).blk t).view.emb (ix2 p q))
  rw [hemb]
  refine point_eq (iblk1 V c 0 t) (iblk1 V c 1 t) (iblk1 V c 2 t) (iblk1 V c 3 t) (iblk1 V c 4 t)
    (V c main_v45) (V c main_v26) (V c main_v46) (V c main_v47) (V c main_v48) p q ⟨t.val * 5000 + p.val, hr⟩ ?_ ?_ ?_ ?_ ?_
  · intro k
    show V c main_v45 (((cfg1.win 0).blk t).view.emb (ix2 p k)) = _
    refine congrArg (V c main_v45) (funext fun ax => Fin.ext ?_)
    match ax with
    | ⟨0, _⟩ => show win1_0.index t (0 : Fin 2) * 5000 + 1 * p.val = t.val * 5000 + p.val; omega
    | ⟨1, _⟩ => show win1_0.index t (1 : Fin 2) * 64 + 1 * k.val = k.val; omega
  · intro k
    show V c main_v26 (((cfg1.win 1).blk t).view.emb (ix2 p k)) = _
    refine congrArg (V c main_v26) (funext fun ax => Fin.ext ?_)
    match ax with
    | ⟨0, _⟩ => show win1_1.index t (0 : Fin 2) * 5000 + 1 * p.val = t.val * 5000 + p.val; omega
    | ⟨1, _⟩ => show win1_1.index t (1 : Fin 2) * 64 + 1 * k.val = k.val; omega
  · funext j
    show V c main_v46 (((cfg1.win 2).blk t).view.emb j) = V c main_v46 j
    refine congrArg (V c main_v46) (funext fun ax => Fin.ext ?_)
    match ax with
    | ⟨0, _⟩ => show win1_2.index t (0 : Fin 2) * 64 + 1 * (j 0).val = (j 0).val; omega
    | ⟨1, _⟩ => show win1_2.index t (1 : Fin 2) * 40 + 1 * (j 1).val = (j 1).val; omega
  · funext j
    show V c main_v47 (((cfg1.win 3).blk t).view.emb j) = V c main_v47 j
    refine congrArg (V c main_v47) (funext fun ax => Fin.ext ?_)
    match ax with
    | ⟨0, _⟩ => show win1_3.index t (0 : Fin 2) * 64 + 1 * (j 0).val = (j 0).val; omega
    | ⟨1, _⟩ => show win1_3.index t (1 : Fin 2) * 40 + 1 * (j 1).val = (j 1).val; omega
  · funext j
    show V c main_v48 (((cfg1.win 4).blk t).view.emb j) = V c main_v48 j
    refine congrArg (V c main_v48) (funext fun ax => Fin.ext ?_)
    match ax with
    | ⟨0, _⟩ => show win1_4.index t (0 : Fin 2) * 1 + 1 * (j 0).val = (j 0).val; omega
    | ⟨1, _⟩ => show win1_4.index t (1 : Fin 2) * 40 + 1 * (j 1).val = (j 1).val; omega

/-- An index of the output array is in point `t`'s block iff each coordinate is in the block's range on its axis. -/
theorem mem_blk (t : Fin cfg1.N) (i : S50000x40.Idx) :
    i ∈ ((cfg1.win 5).blk t).view.set ↔ ∀ a : Fin 2, win1_5.index t a * S5000x40.size a ≤ (i a).val ∧ (i a).val < win1_5.index t a * S5000x40.size a + S5000x40.size a := by
  show i ∈ ((View.whole main_v49).slice (win1_5.rect t)).set ↔ _
  rw [View.set_slice_whole, Rect.mem_set_unit]
  exact Iff.rfl

/-- Every index of the output array is in the block of the point its row falls in. -/
theorem cover (i : S50000x40.Idx) : ∃ t : Fin cfg1.N, (cfg1.win 5).flush t = true ∧ i ∈ ((cfg1.win 5).blk t).view.set := by
  have hi0 : (i 0).val < 50000 := (i 0).isLt
  have hi1 : (i 1).val < 40 := (i 1).isLt
  have hN : cfg1.N = 10 := N_1
  refine ⟨⟨(i 0).val / 5000, by rw [hN]; omega⟩, flush1_5 _, ?_⟩
  obtain ⟨e00, e01, e10, e11, e20, e21, e30, e31, e40, e41, e50, e51⟩ := idx_facts ⟨(i 0).val / 5000, by rw [hN]; omega⟩
  rw [mem_blk]
  intro a
  match a with
  | ⟨0, _⟩ =>
    show win1_5.index _ (0 : Fin 2) * 5000 ≤ (i 0).val ∧ (i 0).val < win1_5.index _ (0 : Fin 2) * 5000 + 5000
    rw [e50]; show (i 0).val / 5000 * 5000 ≤ (i 0).val ∧ (i 0).val < (i 0).val / 5000 * 5000 + 5000; omega
  | ⟨1, _⟩ =>
    show win1_5.index _ (1 : Fin 2) * 40 ≤ (i 1).val ∧ (i 1).val < win1_5.index _ (1 : Fin 2) * 40 + 40
    rw [e51]; omega

/-- THE OUTPUT ARRAY after the region's last point is `G` of the arrays it was entered with. -/
theorem final (c : Dev nD) : (dat1 V c).arrAt 5 cfg1.N = G V c :=
  (dat1 V c).arrAt_eq_of_cover 5 (G V c) (fun t _ => flushed_eq V c t) (cover)

end Cert.KernelIdeal.Region1

end
-- ==== Proof.KValue.lean ====
/-
  The idealized kernel's result as one function of its eight arguments. The buffers at the four boundaries of @main
  are a fold: the launch memory, then the first stretch of host operations, then the first region's output array at
  what its ten write-backs leave, then the second stretch, then the second region's output array. Read back through
  that fold, the result is the second layer with the row-wise logarithm of the softmax, of the mean of the first
  layer's output and of that output itself; the first layer's output is the clamped layer of the mean of the features
  and of the features; the weights enter transposed and each bias as the one row of its one-row matrix.
-/
import proofs.«122939_j71751723647376_1_alg».proof.Proof.KRun
import proofs.«122939_j71751723647376_1_alg».proof.Proof.KHost
import proofs.«122939_j71751723647376_1_alg».proof.Proof.KRegion0
import proofs.«122939_j71751723647376_1_alg».proof.Proof.KRegion1

set_option maxRecDepth 16384

noncomputable section

namespace Cert.KernelIdeal.Whole

open Cert.KernelIdeal Cert.KernelIdeal.Gen Cert.KernelIdeal.HostSide
open Idealize.ShloMosaic Idealize.ShloMosaic.TcCoe Idealize.ShloMosaic.ValueIdx Idealize.SL.Sem

/-- The first layer's output, from the features, the edge list, the two weight matrices and the bias. -/
def hiddenK (x : (⟨S50000x128, .f32⟩ : BufTy).Contents (Elt Ideal)) (e : (⟨S2x800000, .i32⟩ : BufTy).Contents (Elt Ideal))
    (wl wr : (⟨S64x128, .f32⟩ : BufTy).Contents (Elt Ideal)) (b : (⟨S64, .f32⟩ : BufTy).Contents (Elt Ideal)) : S50000x64.Idx → EReal :=
  Sage.layerRelu (mean128 x (srcVec e) (dstVec e)) x (transpose S128x64 [1, 0] wl transposes_S64x128_S128x64_1_0)
    (transpose S128x64 [1, 0] wr transposes_S64x128_S128x64_1_0) (fun j => shapeCast S1x64 b shapeCasts_S64_S1x64 (ix2 (0 : Fin 1) (j 0)))

/-- The program's result, from its eight arguments. -/
def outK (x : (⟨S50000x128, .f32⟩ : BufTy).Contents (Elt Ideal)) (e : (⟨S2x800000, .i32⟩ : BufTy).Contents (Elt Ideal))
    (w1l : (⟨S64x128, .f32⟩ : BufTy).Contents (Elt Ideal)) (b1 : (⟨S64, .f32⟩ : BufTy).Contents (Elt Ideal))
    (w1r : (⟨S64x128, .f32⟩ : BufTy).Contents (Elt Ideal)) (w2l : (⟨S40x64, .f32⟩ : BufTy).Contents (Elt Ideal))
    (b2 : (⟨S40, .f32⟩ : BufTy).Contents (Elt Ideal)) (w2r : (⟨S40x64, .f32⟩ : BufTy).Contents (Elt Ideal)) : S50000x40.Idx → EReal :=
  Sage.layerLsm (mean64 (hiddenK x e w1l w1r b1) (srcVec e) (dstVec e)) (hiddenK x e w1l w1r b1)
    (transpose S64x40 [1, 0] w2l transposes_S40x64_S64x40_1_0) (transpose S64x40 [1, 0] w2r transposes_S40x64_S64x40_1_0)
    (fun j => shapeCast S1x40 b2 shapeCasts_S40_S1x40 (ix2 (0 : Fin 1) (j 0)))

variable (m : (ℓ : Loc nD τ sig) → Buf (Elt Ideal) ℓ) (ρ : Dev nD → PrngReg)

/-- The first region's output array after its last point. -/
theorem hidden_value (c : Dev nD) :
    W2 m ρ c (Proc.devRef .tc main_v26) = hiddenK (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg3)) := by
  refine (W2_arr m ρ c 5).trans ((Region0.final (V1 m ρ) c).trans ?_)
  unfold Region0.G hiddenK
  have e0 : V1 m ρ c main_v22 = mean128 (m ((c.tc : Thread nD τ).loc main_arg0)) (srcVec (m ((c.tc : Thread nD τ).loc main_arg1))) (dstVec (m ((c.tc : Thread nD τ).loc main_arg1))) := first_mean (W0 m ρ c)
  have e1 : V1 m ρ c main_arg0 = (m ((c.tc : Thread nD τ).loc main_arg0)) := first_x (W0 m ρ c)
  have e2 : V1 m ρ c main_v23 = transpose S128x64 [1, 0] (m ((c.tc : Thread nD τ).loc main_arg2)) transposes_S64x128_S128x64_1_0 := first_wl (W0 m ρ c)
  have e3 : V1 m ρ c main_v24 = transpose S128x64 [1, 0] (m ((c.tc : Thread nD τ).loc main_arg4)) transposes_S64x128_S128x64_1_0 := first_wr (W0 m ρ c)
  have e4 : V1 m ρ c main_v25 = shapeCast S1x64 (m ((c.tc : Thread nD τ).loc main_arg3)) shapeCasts_S64_S1x64 := first_b (W0 m ρ c)
  rw [e0, e1, e2, e3, e4]

/-- The second region's output array after its last point: the program's result. -/
theorem out_value (c : Dev nD) :
    W4 m ρ c (Proc.devRef .tc main_v49)
      = outK (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  refine (Out.W4_out m ρ c).trans ((Region1.final (V3 m ρ) c).trans ?_)
  unfold Region1.G outK
  have hs : W2 m ρ c (Proc.devRef .tc main_v1) = srcVec (m ((c.tc : Thread nD τ).loc main_arg1)) :=
    (W2_of_ne m ρ c main_v1 (by decide)).trans (first_src (W0 m ρ c))
  have hd : W2 m ρ c (Proc.devRef .tc main_v3) = dstVec (m ((c.tc : Thread nD τ).loc main_arg1)) :=
    (W2_of_ne m ρ c main_v3 (by decide)).trans (first_dst (W0 m ρ c))
  have e0 : V3 m ρ c main_v45 = mean64 (hiddenK (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg3)))
      (srcVec (m ((c.tc : Thread nD τ).loc main_arg1))) (dstVec (m ((c.tc : Thread nD τ).loc main_arg1))) := by
    refine (second_mean (W2 m ρ c)).trans ?_
    rw [hidden_value m ρ c, hs, hd]
  have e1 : V3 m ρ c main_v26 = hiddenK (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg3)) :=
    (second_h (W2 m ρ c)).trans (hidden_value m ρ c)
  have e2 : V3 m ρ c main_v46 = transpose S64x40 [1, 0] (m ((c.tc : Thread nD τ).loc main_arg5)) transposes_S40x64_S64x40_1_0 := by
    refine (second_wl (W2 m ρ c)).trans ?_
    rw [show W2 m ρ c (Proc.devRef .tc main_arg5) = (m ((c.tc : Thread nD τ).loc main_arg5)) from
      (W2_of_ne m ρ c main_arg5 (by decide)).trans (first_keeps_w2l (W0 m ρ c))]
  have e3 : V3 m ρ c main_v47 = transpose S64x40 [1, 0] (m ((c.tc : Thread nD τ).loc main_arg7)) transposes_S40x64_S64x40_1_0 := by
    refine (second_wr (W2 m ρ c)).trans ?_
    rw [show W2 m ρ c (Proc.devRef .tc main_arg7) = (m ((c.tc : Thread nD τ).loc main_arg7)) from
      (W2_of_ne m ρ c main_arg7 (by decide)).trans (first_keeps_w2r (W0 m ρ c))]
  have e4 : V3 m ρ c main_v48 = shapeCast S1x40 (m ((c.tc : Thread nD τ).loc main_arg6)) shapeCasts_S40_S1x40 := by
    refine (second_b (W2 m ρ c)).trans ?_
    rw [show W2 m ρ c (Proc.devRef .tc main_arg6) = (m ((c.tc : Thread nD τ).loc main_arg6)) from
      (W2_of_ne m ρ c main_arg6 (by decide)).trans (first_keeps_b2 (W0 m ρ c))]
  rw [e0, e1, e2, e3, e4]

/-- The idealized kernel's run with its result named as the function of the arguments. -/
theorem run : θ_run defs (onTc (τ := τ) (main (F := Ideal))) ⟨m, fun _ => 0, ρ⟩ (fun r => ∀ c : Dev nD,
      r.2.mem ((c.tc : Thread nD τ).loc main_v49)
        = outK (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (out_value m ρ c), (h c).2⟩) (Out.run_named m ρ)

end Cert.KernelIdeal.Whole

end
-- ==== Proof.RefStages.lean ====
/-
  The reference program's run, stage by stage. Its @main is a straight line of host operations: from the edge list the
  source and destination node of every edge; the mean of every node's in-neighbours' feature rows (gather the source
  rows, add each into its destination's row, divide by the number of arriving edges, at least one); the first layer
  (two matrix products with transposed weights, a bias, the clamp at zero); the same mean of the first layer's output;
  the second layer and the row-wise logarithm of the softmax. Each stage is named as one function of its inputs and the
  line is cut into the four stretches that compute them; a stretch's results are functions of whatever contents it
  starts from, so the whole line's result is the four stages composed. The last stage is first read over ANY pair of
  row reductions in place of the row maximum and the row sum: its shape does not depend on what the two compute.
-/
import proofs.«122939_j71751723647376_1_alg».proof.Proof.Gen.ReferenceIdeal
import Idealize.ShloMosaic.Lib.StableHlo.Run

noncomputable section

namespace Cert.ReferenceIdeal.Stages

open Cert.ReferenceIdeal Cert.ReferenceIdeal.Gen Idealize.ShloMosaic Idealize.ShloMosaic.TcCoe Idealize.SL.Sem Idealize.ShloMosaic.StableHlo

variable {F : FTy → Type} [FloatOps F]

/-! ## The stages as functions -/

/-- Row 0 of the edge list, as a vector: every edge's source node. -/
def srcVec (e : (⟨S2x800000, .i32⟩ : BufTy).Contents (Elt F)) : (⟨S800000, .i32⟩ : BufTy).Contents (Elt F) :=
  shapeCast S800000 (extractStridedSlice S1x800000 ![0, 0] e slices_S2x800000_S1x800000_0_0) shapeCasts_S1x800000_S800000

/-- Row 1 of the edge list, as a vector: every edge's destination node. -/
def dstVec (e : (⟨S2x800000, .i32⟩ : BufTy).Contents (Elt F)) : (⟨S800000, .i32⟩ : BufTy).Contents (Elt F) :=
  shapeCast S800000 (extractStridedSlice S1x800000 ![1, 0] e slices_S2x800000_S1x800000_1_0) shapeCasts_S1x800000_S800000

/-- A node vector as the one-column index array a gather takes, a negative entry counted from the end. -/
def wrapCol (s : (⟨S800000, .i32⟩ : BufTy).Contents (Elt F)) : (⟨S800000x1, .i32⟩ : BufTy).Contents (Elt F) :=
  broadcastInDim S800000x1 ![0] bcast_S800000_S800000x1_0
    (select (cmpi .slt s (broadcastInDim S800000 ![] bcast_S_S800000 (constantI S_ 32 0#32)))
      (addi s (broadcastInDim S800000 ![] bcast_S_S800000 (constantI S_ 32 50000#32))) s)

/-- The number of edges arriving at each node, at least one. -/
def degree (d : (⟨S800000, .i32⟩ : BufTy).Contents (Elt F)) : (⟨S50000, .f32⟩ : BufTy).Contents (Elt F) :=
  maximumf
    (Host.scatterAdd scatter_S50000_S800000x1_S800000_n_0_0_1 (broadcastInDim S50000 ![] bcast_S_S50000 (constant S_ .f32 0x00000000#32))
      (broadcastInDim S800000x1 ![0] bcast_S800000_S800000x1_0 d)
      (broadcastInDim S800000 ![] bcast_S_S800000 (constant S_ .f32 0x3F800000#32)))
    (broadcastInDim S50000 ![] bcast_S_S50000 (constant S_ .f32 0x3F800000#32))

/-- The mean of the in-neighbours' rows of a 128-column feature array. -/
def mean128 (x : (⟨S50000x128, .f32⟩ : BufTy).Contents (Elt F)) (s d : (⟨S800000, .i32⟩ : BufTy).Contents (Elt F)) : (⟨S50000x128, .f32⟩ : BufTy).Contents (Elt F) :=
  Host.divf
    (Host.scatterAdd scatter_S50000x128_S800000x1_S800000x128_1_0_0_1
      (broadcastInDim S50000x128 ![] bcast_S_S50000x128 (constant S_ .f32 0x00000000#32))
      (broadcastInDim S800000x1 ![0] bcast_S800000_S800000x1_0 d)
      (Host.gather gather_S50000x128_S800000x1_S800000x128_1_0_n_n_0_1_1128 x (wrapCol s)))
    (broadcastInDim S50000x128 ![0, 1] bcast_S50000x1_S50000x128_0_1 (broadcastInDim S50000x1 ![0] bcast_S50000_S50000x1_0 (degree d)))

/-- The mean of the in-neighbours' rows of a 64-column feature array. -/
def mean64 (x : (⟨S50000x64, .f32⟩ : BufTy).Contents (Elt F)) (s d : (⟨S800000, .i32⟩ : BufTy).Contents (Elt F)) : (⟨S50000x64, .f32⟩ : BufTy).Contents (Elt F) :=
  Host.divf
    (Host.scatterAdd scatter_S50000x64_S800000x1_S800000x64_1_0_0_1
      (broadcastInDim S50000x64 ![] bcast_S_S50000x64 (constant S_ .f32 0x00000000#32))
      (broadcastInDim S800000x1 ![0] bcast_S800000_S800000x1_0 d)
      (Host.gather gather_S50000x64_S800000x1_S800000x64_1_0_n_n_0_1_164 x (wrapCol s)))
    (broadcastInDim S50000x64 ![0, 1] bcast_S50000x1_S50000x64_0_1 (broadcastInDim S50000x1 ![0] bcast_S50000_S50000x1_0 (degree d)))

/-- The first layer: the mean times the left weights transposed, plus the bias along the rows, plus the features times
    the right weights transposed, clamped below at zero. -/
def hiddenStage (a x : (⟨S50000x128, .f32⟩ : BufTy).Contents (Elt F)) (wl wr : (⟨S64x128, .f32⟩ : BufTy).Contents (Elt F)) (b : (⟨S64, .f32⟩ : BufTy).Contents (Elt F)) : (⟨S50000x64, .f32⟩ : BufTy).Contents (Elt F) :=
  maximumf
    (addf
      (addf (Host.dotGeneral dot_S50000x128_S128x64_S50000x64_1_0_0_1_n_n none a (transpose S128x64 [1, 0] wl transposes_S64x128_S128x64_1_0))
        (broadcastInDim S50000x64 ![0, 1] bcast_S1x64_S50000x64_0_1 (broadcastInDim S1x64 ![1] bcast_S64_S1x64_1 b)))
      (Host.dotGeneral dot_S50000x128_S128x64_S50000x64_1_0_0_1_n_n none x (transpose S128x64 [1, 0] wr transposes_S64x128_S128x64_1_0)))
    (broadcastInDim S50000x64 ![] bcast_S_S50000x64 (constant S_ .f32 0x00000000#32))

/-- The second layer's linear part. -/
def logits (a h : (⟨S50000x64, .f32⟩ : BufTy).Contents (Elt F)) (wl wr : (⟨S40x64, .f32⟩ : BufTy).Contents (Elt F)) (b : (⟨S40, .f32⟩ : BufTy).Contents (Elt F)) : (⟨S50000x40, .f32⟩ : BufTy).Contents (Elt F) :=
  addf
    (addf (Host.dotGeneral dot_S50000x64_S64x40_S50000x40_1_0_0_1_n_n none a (transpose S64x40 [1, 0] wl transposes_S40x64_S64x40_1_0))
      (broadcastInDim S50000x40 ![0, 1] bcast_S1x40_S50000x40_0_1 (broadcastInDim S1x40 ![1] bcast_S40_S1x40_1 b)))
    (Host.dotGeneral dot_S50000x64_S64x40_S50000x40_1_0_0_1_n_n none h (transpose S64x40 [1, 0] wr transposes_S40x64_S64x40_1_0))

/-- A row-wise shift: each row minus the larger of −∞ and its maximum. -/
def shifted (u : (⟨S50000x40, .f32⟩ : BufTy).Contents (Elt F)) : (⟨S50000x40, .f32⟩ : BufTy).Contents (Elt F) :=
  subf u (broadcastInDim S50000x40 ![0, 1] bcast_S50000x1_S50000x40_0_1 (broadcastInDim S50000x1 ![0] bcast_S50000_S50000x1_0
    (maximumf (broadcastInDim S50000 ![] bcast_S_S50000 (constant S_ .f32 0xFF800000#32))
      (Host.reduce FloatOps.maximumf u (constant S_ .f32 0xFF800000#32) reducesTo_S50000x40_S50000_d1 h_S_))))

/-- The row-wise logarithm of the softmax. -/
def logSoftmax (u : (⟨S50000x40, .f32⟩ : BufTy).Contents (Elt F)) : (⟨S50000x40, .f32⟩ : BufTy).Contents (Elt F) :=
  subf (shifted u) (broadcastInDim S50000x40 ![0, 1] bcast_S50000x1_S50000x40_0_1 (Host.log (broadcastInDim S50000x1 ![0] bcast_S50000_S50000x1_0
    (Host.reduceAdd (Host.exp (shifted u)) (constant S_ .f32 0x00000000#32) reducesTo_S50000x40_S50000_d1 h_S_))))

/-- The shift and the logarithm of the softmax over ANY pair of row reductions (a maximum-like one and a sum-like one):
    the shape of the computation without the two reductions' own definitions. -/
def shiftedG (Rmax : (⟨S50000x40, .f32⟩ : BufTy).Contents (Elt F) → (⟨S_, .f32⟩ : BufTy).Contents (Elt F) → (⟨S50000, .f32⟩ : BufTy).Contents (Elt F)) (u : (⟨S50000x40, .f32⟩ : BufTy).Contents (Elt F)) : (⟨S50000x40, .f32⟩ : BufTy).Contents (Elt F) :=
  subf u (broadcastInDim S50000x40 ![0, 1] bcast_S50000x1_S50000x40_0_1 (broadcastInDim S50000x1 ![0] bcast_S50000_S50000x1_0
    (maximumf (broadcastInDim S50000 ![] bcast_S_S50000 (constant S_ .f32 0xFF800000#32))
      (Rmax u (constant S_ .f32 0xFF800000#32)))))

@[inherit_doc shiftedG]
def logSoftmaxG (Rmax Radd : (⟨S50000x40, .f32⟩ : BufTy).Contents (Elt F) → (⟨S_, .f32⟩ : BufTy).Contents (Elt F) → (⟨S50000, .f32⟩ : BufTy).Contents (Elt F)) (u : (⟨S50000x40, .f32⟩ : BufTy).Contents (Elt F)) : (⟨S50000x40, .f32⟩ : BufTy).Contents (Elt F) :=
  subf (shiftedG Rmax u) (broadcastInDim S50000x40 ![0, 1] bcast_S50000x1_S50000x40_0_1 (Host.log (broadcastInDim S50000x1 ![0] bcast_S50000_S50000x1_0
    (Radd (Host.exp (shiftedG Rmax u)) (constant S_ .f32 0x00000000#32)))))

/-- The host's maximum over each row, from an initial value. -/
abbrev rowMaxOp : (⟨S50000x40, .f32⟩ : BufTy).Contents (Elt F) → (⟨S_, .f32⟩ : BufTy).Contents (Elt F) → (⟨S50000, .f32⟩ : BufTy).Contents (Elt F) := fun x v => Host.reduce FloatOps.maximumf x v reducesTo_S50000x40_S50000_d1 h_S_
/-- The host's sum over each row, from an initial value. -/
abbrev rowSumOp : (⟨S50000x40, .f32⟩ : BufTy).Contents (Elt F) → (⟨S_, .f32⟩ : BufTy).Contents (Elt F) → (⟨S50000, .f32⟩ : BufTy).Contents (Elt F) := fun x v => Host.reduceAdd x v reducesTo_S50000x40_S50000_d1 h_S_

theorem logSoftmax_eq_G (u : (⟨S50000x40, .f32⟩ : BufTy).Contents (Elt F)) : logSoftmax u = logSoftmaxG rowMaxOp rowSumOp u := rfl

/-! ## @main as a list of operations, and its four stretches -/

/-- @main's 88 operations, in order (a called function's operations stand in its call's place). -/
abbrev ops : List (HloOp τ sig (Elt F)) :=
  [ unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    reshape main_v0 main_v1 rfl shapeCasts_S1x800000_S800000,
    unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    reshape main_v2 main_v3 rfl shapeCasts_S1x800000_S800000,
    nullary main_c (constantI S_ 32 0#32),
    unary main_c main_v4 (broadcastInDim S800000 ![] bcast_S_S800000 : (⟨S_, .i32⟩ : BufTy).Contents (Elt F) → (⟨S800000, .i32⟩ : BufTy).Contents (Elt F)),
    binary main_v1 main_v4 main_v5 (cmpi .slt : (⟨S800000, .i32⟩ : BufTy).Contents (Elt F) → (⟨S800000, .i32⟩ : BufTy).Contents (Elt F) → (⟨S800000, .i1⟩ : BufTy).Contents (Elt F)),
    nullary main_c_0 (constantI S_ 32 50000#32),
    unary main_c_0 main_v6 (broadcastInDim S800000 ![] bcast_S_S800000 : (⟨S_, .i32⟩ : BufTy).Contents (Elt F) → (⟨S800000, .i32⟩ : BufTy).Contents (Elt F)),
    binary main_v1 main_v6 main_v7 (addi : (⟨S800000, .i32⟩ : BufTy).Contents (Elt F) → (⟨S800000, .i32⟩ : BufTy).Contents (Elt F) → (⟨S800000, .i32⟩ : BufTy).Contents (Elt F)),
    ternary main_v5 main_v7 main_v1 main_v8 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v8 main_v9 (broadcastInDim S800000x1 ![0] bcast_S800000_S800000x1_0 : (⟨S800000, .i32⟩ : BufTy).Contents (Elt F) → (⟨S800000x1, .i32⟩ : BufTy).Contents (Elt F)),
    binary main_arg0 main_v9 main_v10 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    nullary main_cst (constant S_ .f32 0x00000000#32),
    unary main_cst main_v11 (broadcastInDim S50000x128 ![] bcast_S_S50000x128 : (⟨S_, .f32⟩ : BufTy).Contents (Elt F) → (⟨S50000x128, .f32⟩ : BufTy).Contents (Elt F)),
    unary main_v3 main_v12 (broadcastInDim S800000x1 ![0] bcast_S800000_S800000x1_0 : (⟨S800000, .i32⟩ : BufTy).Contents (Elt F) → (⟨S800000x1, .i32⟩ : BufTy).Contents (Elt F)),
    ternary main_v11 main_v12 main_v10 main_v13 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    nullary main_cst_1 (constant S_ .f32 0x3F800000#32),
    unary main_cst_1 main_v14 (broadcastInDim S800000 ![] bcast_S_S800000 : (⟨S_, .f32⟩ : BufTy).Contents (Elt F) → (⟨S800000, .f32⟩ : BufTy).Contents (Elt F)),
    nullary main_cst_2 (constant S_ .f32 0x00000000#32),
    unary main_cst_2 main_v15 (broadcastInDim S50000 ![] bcast_S_S50000 : (⟨S_, .f32⟩ : BufTy).Contents (Elt F) → (⟨S50000, .f32⟩ : BufTy).Contents (Elt F)),
    unary main_v3 main_v16 (broadcastInDim S800000x1 ![0] bcast_S800000_S800000x1_0 : (⟨S800000, .i32⟩ : BufTy).Contents (Elt F) → (⟨S800000x1, .i32⟩ : BufTy).Contents (Elt F)),
    ternary main_v15 main_v16 main_v14 main_v17 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_3 (constant S_ .f32 0x3F800000#32),
    unary main_cst_3 main_v18 (broadcastInDim S50000 ![] bcast_S_S50000 : (⟨S_, .f32⟩ : BufTy).Contents (Elt F) → (⟨S50000, .f32⟩ : BufTy).Contents (Elt F)),
    binary main_v17 main_v18 main_v19 (maximumf : (⟨S50000, .f32⟩ : BufTy).Contents (Elt F) → (⟨S50000, .f32⟩ : BufTy).Contents (Elt F) → (⟨S50000, .f32⟩ : BufTy).Contents (Elt F)),
    unary main_v19 main_v20 (broadcastInDim S50000x1 ![0] bcast_S50000_S50000x1_0 : (⟨S50000, .f32⟩ : BufTy).Contents (Elt F) → (⟨S50000x1, .f32⟩ : BufTy).Contents (Elt F)),
    unary main_v20 main_v21 (broadcastInDim S50000x128 ![0, 1] bcast_S50000x1_S50000x128_0_1 : (⟨S50000x1, .f32⟩ : BufTy).Contents (Elt F) → (⟨S50000x128, .f32⟩ : BufTy).Contents (Elt F)),
    binary main_v13 main_v21 main_v22 (Host.divf : (⟨S50000x128, .f32⟩ : BufTy).Contents (Elt F) → (⟨S50000x128, .f32⟩ : BufTy).Contents (Elt F) → (⟨S50000x128, .f32⟩ : BufTy).Contents (Elt F)),
    unary main_arg2 main_v23 ((transpose S128x64 [1, 0] · transposes_S64x128_S128x64_1_0) : (⟨S64x128, .f32⟩ : BufTy).Contents (Elt F) → (⟨S128x64, .f32⟩ : BufTy).Contents (Elt F)),
    binary main_v22 main_v23 main_v24 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    unary main_arg3 main_v25 (broadcastInDim S1x64 ![1] bcast_S64_S1x64_1 : (⟨S64, .f32⟩ : BufTy).Contents (Elt F) → (⟨S1x64, .f32⟩ : BufTy).Contents (Elt F)),
    unary main_v25 main_v26 (broadcastInDim S50000x64 ![0, 1] bcast_S1x64_S50000x64_0_1 : (⟨S1x64, .f32⟩ : BufTy).Contents (Elt F) → (⟨S50000x64, .f32⟩ : BufTy).Contents (Elt F)),
    binary main_v24 main_v26 main_v27 (addf : (⟨S50000x64, .f32⟩ : BufTy).Contents (Elt F) → (⟨S50000x64, .f32⟩ : BufTy).Contents (Elt F) → (⟨S50000x64, .f32⟩ : BufTy).Contents (Elt F)),
    unary main_arg4 main_v28 ((transpose S128x64 [1, 0] · transposes_S64x128_S128x64_1_0) : (⟨S64x128, .f32⟩ : BufTy).Contents (Elt F) → (⟨S128x64, .f32⟩ : BufTy).Contents (Elt F)),
    binary main_arg0 main_v28 main_v29 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    binary main_v27 main_v29 main_v30 (addf : (⟨S50000x64, .f32⟩ : BufTy).Contents (Elt F) → (⟨S50000x64, .f32⟩ : BufTy).Contents (Elt F) → (⟨S50000x64, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S50000x64, .f32⟩) main_call0_v0) (broadcastInDim S50000x64 ![] bcast_S_S50000x64),
    TRef.binary (TRef.of (T := ⟨S50000x64, .f32⟩) main_v30) (TRef.of (T := ⟨S50000x64, .f32⟩) main_call0_v0) (TRef.of (T := ⟨S50000x64, .f32⟩) main_v31) maximumf,
    nullary main_c_4 (constantI S_ 32 0#32),
    unary main_c_4 main_v32 (broadcastInDim S800000 ![] bcast_S_S800000 : (⟨S_, .i32⟩ : BufTy).Contents (Elt F) → (⟨S800000, .i32⟩ : BufTy).Contents (Elt F)),
    binary main_v1 main_v32 main_v33 (cmpi .slt : (⟨S800000, .i32⟩ : BufTy).Contents (Elt F) → (⟨S800000, .i32⟩ : BufTy).Contents (Elt F) → (⟨S800000, .i1⟩ : BufTy).Contents (Elt F)),
    nullary main_c_5 (constantI S_ 32 50000#32),
    unary main_c_5 main_v34 (broadcastInDim S800000 ![] bcast_S_S800000 : (⟨S_, .i32⟩ : BufTy).Contents (Elt F) → (⟨S800000, .i32⟩ : BufTy).Contents (Elt F)),
    binary main_v1 main_v34 main_v35 (addi : (⟨S800000, .i32⟩ : BufTy).Contents (Elt F) → (⟨S800000, .i32⟩ : BufTy).Contents (Elt F) → (⟨S800000, .i32⟩ : BufTy).Contents (Elt F)),
    ternary main_v33 main_v35 main_v1 main_v36 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v36 main_v37 (broadcastInDim S800000x1 ![0] bcast_S800000_S800000x1_0 : (⟨S800000, .i32⟩ : BufTy).Contents (Elt F) → (⟨S800000x1, .i32⟩ : BufTy).Contents (Elt F)),
    binary main_v31 main_v37 main_v38 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    nullary main_cst_6 (constant S_ .f32 0x00000000#32),
    unary main_cst_6 main_v39 (broadcastInDim S50000x64 ![] bcast_S_S50000x64 : (⟨S_, .f32⟩ : BufTy).Contents (Elt F) → (⟨S50000x64, .f32⟩ : BufTy).Contents (Elt F)),
    unary main_v3 main_v40 (broadcastInDim S800000x1 ![0] bcast_S800000_S800000x1_0 : (⟨S800000, .i32⟩ : BufTy).Contents (Elt F) → (⟨S800000x1, .i32⟩ : BufTy).Contents (Elt F)),
    ternary main_v39 main_v40 main_v38 main_v41 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    nullary main_cst_7 (constant S_ .f32 0x3F800000#32),
    unary main_cst_7 main_v42 (broadcastInDim S800000 ![] bcast_S_S800000 : (⟨S_, .f32⟩ : BufTy).Contents (Elt F) → (⟨S800000, .f32⟩ : BufTy).Contents (Elt F)),
    nullary main_cst_8 (constant S_ .f32 0x00000000#32),
    unary main_cst_8 main_v43 (broadcastInDim S50000 ![] bcast_S_S50000 : (⟨S_, .f32⟩ : BufTy).Contents (Elt F) → (⟨S50000, .f32⟩ : BufTy).Contents (Elt F)),
    unary main_v3 main_v44 (broadcastInDim S800000x1 ![0] bcast_S800000_S800000x1_0 : (⟨S800000, .i32⟩ : BufTy).Contents (Elt F) → (⟨S800000x1, .i32⟩ : BufTy).Contents (Elt F)),
    ternary main_v43 main_v44 main_v42 main_v45 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_9 (constant S_ .f32 0x3F800000#32),
    unary main_cst_9 main_v46 (broadcastInDim S50000 ![] bcast_S_S50000 : (⟨S_, .f32⟩ : BufTy).Contents (Elt F) → (⟨S50000, .f32⟩ : BufTy).Contents (Elt F)),
    binary main_v45 main_v46 main_v47 (maximumf : (⟨S50000, .f32⟩ : BufTy).Contents (Elt F) → (⟨S50000, .f32⟩ : BufTy).Contents (Elt F) → (⟨S50000, .f32⟩ : BufTy).Contents (Elt F)),
    unary main_v47 main_v48 (broadcastInDim S50000x1 ![0] bcast_S50000_S50000x1_0 : (⟨S50000, .f32⟩ : BufTy).Contents (Elt F) → (⟨S50000x1, .f32⟩ : BufTy).Contents (Elt F)),
    unary main_v48 main_v49 (broadcastInDim S50000x64 ![0, 1] bcast_S50000x1_S50000x64_0_1 : (⟨S50000x1, .f32⟩ : BufTy).Contents (Elt F) → (⟨S50000x64, .f32⟩ : BufTy).Contents (Elt F)),
    binary main_v41 main_v49 main_v50 (Host.divf : (⟨S50000x64, .f32⟩ : BufTy).Contents (Elt F) → (⟨S50000x64, .f32⟩ : BufTy).Contents (Elt F) → (⟨S50000x64, .f32⟩ : BufTy).Contents (Elt F)),
    unary main_arg5 main_v51 ((transpose S64x40 [1, 0] · transposes_S40x64_S64x40_1_0) : (⟨S40x64, .f32⟩ : BufTy).Contents (Elt F) → (⟨S64x40, .f32⟩ : BufTy).Contents (Elt F)),
    binary main_v50 main_v51 main_v52 ((fun l r => Host.dotGeneral dot_S50000x64_S64x40_S50000x40_1_0_0_1_n_n none l r) : (⟨S50000x64, .f32⟩ : BufTy).Contents (Elt F) → (⟨S64x40, .f32⟩ : BufTy).Contents (Elt F) → (⟨S50000x40, .f32⟩ : BufTy).Contents (Elt F)),
    unary main_arg6 main_v53 (broadcastInDim S1x40 ![1] bcast_S40_S1x40_1 : (⟨S40, .f32⟩ : BufTy).Contents (Elt F) → (⟨S1x40, .f32⟩ : BufTy).Contents (Elt F)),
    unary main_v53 main_v54 (broadcastInDim S50000x40 ![0, 1] bcast_S1x40_S50000x40_0_1 : (⟨S1x40, .f32⟩ : BufTy).Contents (Elt F) → (⟨S50000x40, .f32⟩ : BufTy).Contents (Elt F)),
    binary main_v52 main_v54 main_v55 (addf : (⟨S50000x40, .f32⟩ : BufTy).Contents (Elt F) → (⟨S50000x40, .f32⟩ : BufTy).Contents (Elt F) → (⟨S50000x40, .f32⟩ : BufTy).Contents (Elt F)),
    unary main_arg7 main_v56 ((transpose S64x40 [1, 0] · transposes_S40x64_S64x40_1_0) : (⟨S40x64, .f32⟩ : BufTy).Contents (Elt F) → (⟨S64x40, .f32⟩ : BufTy).Contents (Elt F)),
    binary main_v31 main_v56 main_v57 ((fun l r => Host.dotGeneral dot_S50000x64_S64x40_S50000x40_1_0_0_1_n_n none l r) : (⟨S50000x64, .f32⟩ : BufTy).Contents (Elt F) → (⟨S64x40, .f32⟩ : BufTy).Contents (Elt F) → (⟨S50000x40, .f32⟩ : BufTy).Contents (Elt F)),
    binary main_v55 main_v57 main_v58 (addf : (⟨S50000x40, .f32⟩ : BufTy).Contents (Elt F) → (⟨S50000x40, .f32⟩ : BufTy).Contents (Elt F) → (⟨S50000x40, .f32⟩ : BufTy).Contents (Elt F)),
    TRef.nullary (TRef.of (T := ⟨S_, .f32⟩) main_call1_cst) (constant S_ .f32 0xFF800000#32),
    TRef.binary (TRef.of (T := ⟨S50000x40, .f32⟩) main_v58) (TRef.of (T := ⟨S_, .f32⟩) main_call1_cst) (TRef.of (T := ⟨S50000, .f32⟩) main_call1_v0) (fun x v => Host.reduce FloatOps.maximumf x v reducesTo_S50000x40_S50000_d1 h_S_),
    TRef.nullary (TRef.of (T := ⟨S_, .f32⟩) main_call1_cst_0) (constant S_ .f32 0xFF800000#32),
    TRef.unary (TRef.of (T := ⟨S_, .f32⟩) main_call1_cst_0) (TRef.of (T := ⟨S50000, .f32⟩) main_call1_v1) (broadcastInDim S50000 ![] bcast_S_S50000),
    TRef.binary (TRef.of (T := ⟨S50000, .f32⟩) main_call1_v1) (TRef.of (T := ⟨S50000, .f32⟩) main_call1_v0) (TRef.of (T := ⟨S50000, .f32⟩) main_call1_v2) maximumf,
    TRef.unary (TRef.of (T := ⟨S50000, .f32⟩) main_call1_v2) (TRef.of (T := ⟨S50000x1, .f32⟩) main_call1_v3) (broadcastInDim S50000x1 ![0] bcast_S50000_S50000x1_0),
    TRef.unary (TRef.of (T := ⟨S50000x1, .f32⟩) main_call1_v3) (TRef.of (T := ⟨S50000x40, .f32⟩) main_call1_v4) (broadcastInDim S50000x40 ![0, 1] bcast_S50000x1_S50000x40_0_1),
    TRef.binary (TRef.of (T := ⟨S50000x40, .f32⟩) main_v58) (TRef.of (T := ⟨S50000x40, .f32⟩) main_call1_v4) (TRef.of (T := ⟨S50000x40, .f32⟩) main_call1_v5) subf,
    TRef.unary (TRef.of (T := ⟨S50000x40, .f32⟩) main_call1_v5) (TRef.of (T := ⟨S50000x40, .f32⟩) main_call1_v6) Host.exp,
    TRef.nullary (TRef.of (T := ⟨S_, .f32⟩) main_call1_cst_1) (constant S_ .f32 0x00000000#32),
    TRef.binary (TRef.of (T := ⟨S50000x40, .f32⟩) main_call1_v6) (TRef.of (T := ⟨S_, .f32⟩) main_call1_cst_1) (TRef.of (T := ⟨S50000, .f32⟩) main_call1_v7) (fun x v => Host.reduceAdd x v reducesTo_S50000x40_S50000_d1 h_S_),
    TRef.unary (TRef.of (T := ⟨S50000, .f32⟩) main_call1_v7) (TRef.of (T := ⟨S50000x1, .f32⟩) main_call1_v8) (broadcastInDim S50000x1 ![0] bcast_S50000_S50000x1_0),
    TRef.unary (TRef.of (T := ⟨S50000x1, .f32⟩) main_call1_v8) (TRef.of (T := ⟨S50000x1, .f32⟩) main_call1_v9) Host.log,
    TRef.unary (TRef.of (T := ⟨S50000x1, .f32⟩) main_call1_v9) (TRef.of (T := ⟨S50000x40, .f32⟩) main_call1_v10) (broadcastInDim S50000x40 ![0, 1] bcast_S50000x1_S50000x40_0_1),
    TRef.binary (TRef.of (T := ⟨S50000x40, .f32⟩) main_call1_v5) (TRef.of (T := ⟨S50000x40, .f32⟩) main_call1_v10) (TRef.of (T := ⟨S50000x40, .f32⟩) main_v59) subf ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., unary_bufs_sub .., binary_bufs_sub .., unary_bufs_sub .., unary_bufs_sub .., binary_bufs_sub .., unary_bufs_sub .., binary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., unary_bufs_sub .., binary_bufs_sub .., unary_bufs_sub .., unary_bufs_sub .., binary_bufs_sub .., unary_bufs_sub .., binary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩

/-- The operations up to the first mean. -/
abbrev opsA : List (HloOp τ sig (Elt F)) :=
  [ unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    reshape main_v0 main_v1 rfl shapeCasts_S1x800000_S800000,
    unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    reshape main_v2 main_v3 rfl shapeCasts_S1x800000_S800000,
    nullary main_c (constantI S_ 32 0#32),
    unary main_c main_v4 (broadcastInDim S800000 ![] bcast_S_S800000 : (⟨S_, .i32⟩ : BufTy).Contents (Elt F) → (⟨S800000, .i32⟩ : BufTy).Contents (Elt F)),
    binary main_v1 main_v4 main_v5 (cmpi .slt : (⟨S800000, .i32⟩ : BufTy).Contents (Elt F) → (⟨S800000, .i32⟩ : BufTy).Contents (Elt F) → (⟨S800000, .i1⟩ : BufTy).Contents (Elt F)),
    nullary main_c_0 (constantI S_ 32 50000#32),
    unary main_c_0 main_v6 (broadcastInDim S800000 ![] bcast_S_S800000 : (⟨S_, .i32⟩ : BufTy).Contents (Elt F) → (⟨S800000, .i32⟩ : BufTy).Contents (Elt F)),
    binary main_v1 main_v6 main_v7 (addi : (⟨S800000, .i32⟩ : BufTy).Contents (Elt F) → (⟨S800000, .i32⟩ : BufTy).Contents (Elt F) → (⟨S800000, .i32⟩ : BufTy).Contents (Elt F)),
    ternary main_v5 main_v7 main_v1 main_v8 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v8 main_v9 (broadcastInDim S800000x1 ![0] bcast_S800000_S800000x1_0 : (⟨S800000, .i32⟩ : BufTy).Contents (Elt F) → (⟨S800000x1, .i32⟩ : BufTy).Contents (Elt F)),
    binary main_arg0 main_v9 main_v10 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    nullary main_cst (constant S_ .f32 0x00000000#32),
    unary main_cst main_v11 (broadcastInDim S50000x128 ![] bcast_S_S50000x128 : (⟨S_, .f32⟩ : BufTy).Contents (Elt F) → (⟨S50000x128, .f32⟩ : BufTy).Contents (Elt F)),
    unary main_v3 main_v12 (broadcastInDim S800000x1 ![0] bcast_S800000_S800000x1_0 : (⟨S800000, .i32⟩ : BufTy).Contents (Elt F) → (⟨S800000x1, .i32⟩ : BufTy).Contents (Elt F)),
    ternary main_v11 main_v12 main_v10 main_v13 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    nullary main_cst_1 (constant S_ .f32 0x3F800000#32),
    unary main_cst_1 main_v14 (broadcastInDim S800000 ![] bcast_S_S800000 : (⟨S_, .f32⟩ : BufTy).Contents (Elt F) → (⟨S800000, .f32⟩ : BufTy).Contents (Elt F)),
    nullary main_cst_2 (constant S_ .f32 0x00000000#32),
    unary main_cst_2 main_v15 (broadcastInDim S50000 ![] bcast_S_S50000 : (⟨S_, .f32⟩ : BufTy).Contents (Elt F) → (⟨S50000, .f32⟩ : BufTy).Contents (Elt F)),
    unary main_v3 main_v16 (broadcastInDim S800000x1 ![0] bcast_S800000_S800000x1_0 : (⟨S800000, .i32⟩ : BufTy).Contents (Elt F) → (⟨S800000x1, .i32⟩ : BufTy).Contents (Elt F)),
    ternary main_v15 main_v16 main_v14 main_v17 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_3 (constant S_ .f32 0x3F800000#32),
    unary main_cst_3 main_v18 (broadcastInDim S50000 ![] bcast_S_S50000 : (⟨S_, .f32⟩ : BufTy).Contents (Elt F) → (⟨S50000, .f32⟩ : BufTy).Contents (Elt F)),
    binary main_v17 main_v18 main_v19 (maximumf : (⟨S50000, .f32⟩ : BufTy).Contents (Elt F) → (⟨S50000, .f32⟩ : BufTy).Contents (Elt F) → (⟨S50000, .f32⟩ : BufTy).Contents (Elt F)),
    unary main_v19 main_v20 (broadcastInDim S50000x1 ![0] bcast_S50000_S50000x1_0 : (⟨S50000, .f32⟩ : BufTy).Contents (Elt F) → (⟨S50000x1, .f32⟩ : BufTy).Contents (Elt F)),
    unary main_v20 main_v21 (broadcastInDim S50000x128 ![0, 1] bcast_S50000x1_S50000x128_0_1 : (⟨S50000x1, .f32⟩ : BufTy).Contents (Elt F) → (⟨S50000x128, .f32⟩ : BufTy).Contents (Elt F)),
    binary main_v13 main_v21 main_v22 (Host.divf : (⟨S50000x128, .f32⟩ : BufTy).Contents (Elt F) → (⟨S50000x128, .f32⟩ : BufTy).Contents (Elt F) → (⟨S50000x128, .f32⟩ : BufTy).Contents (Elt F)) ]
/-- The first layer. -/
abbrev opsB : List (HloOp τ sig (Elt F)) :=
  [ unary main_arg2 main_v23 ((transpose S128x64 [1, 0] · transposes_S64x128_S128x64_1_0) : (⟨S64x128, .f32⟩ : BufTy).Contents (Elt F) → (⟨S128x64, .f32⟩ : BufTy).Contents (Elt F)),
    binary main_v22 main_v23 main_v24 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    unary main_arg3 main_v25 (broadcastInDim S1x64 ![1] bcast_S64_S1x64_1 : (⟨S64, .f32⟩ : BufTy).Contents (Elt F) → (⟨S1x64, .f32⟩ : BufTy).Contents (Elt F)),
    unary main_v25 main_v26 (broadcastInDim S50000x64 ![0, 1] bcast_S1x64_S50000x64_0_1 : (⟨S1x64, .f32⟩ : BufTy).Contents (Elt F) → (⟨S50000x64, .f32⟩ : BufTy).Contents (Elt F)),
    binary main_v24 main_v26 main_v27 (addf : (⟨S50000x64, .f32⟩ : BufTy).Contents (Elt F) → (⟨S50000x64, .f32⟩ : BufTy).Contents (Elt F) → (⟨S50000x64, .f32⟩ : BufTy).Contents (Elt F)),
    unary main_arg4 main_v28 ((transpose S128x64 [1, 0] · transposes_S64x128_S128x64_1_0) : (⟨S64x128, .f32⟩ : BufTy).Contents (Elt F) → (⟨S128x64, .f32⟩ : BufTy).Contents (Elt F)),
    binary main_arg0 main_v28 main_v29 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    binary main_v27 main_v29 main_v30 (addf : (⟨S50000x64, .f32⟩ : BufTy).Contents (Elt F) → (⟨S50000x64, .f32⟩ : BufTy).Contents (Elt F) → (⟨S50000x64, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S50000x64, .f32⟩) main_call0_v0) (broadcastInDim S50000x64 ![] bcast_S_S50000x64),
    TRef.binary (TRef.of (T := ⟨S50000x64, .f32⟩) main_v30) (TRef.of (T := ⟨S50000x64, .f32⟩) main_call0_v0) (TRef.of (T := ⟨S50000x64, .f32⟩) main_v31) maximumf ]
/-- The second mean. -/
abbrev opsC : List (HloOp τ sig (Elt F)) :=
  [ nullary main_c_4 (constantI S_ 32 0#32),
    unary main_c_4 main_v32 (broadcastInDim S800000 ![] bcast_S_S800000 : (⟨S_, .i32⟩ : BufTy).Contents (Elt F) → (⟨S800000, .i32⟩ : BufTy).Contents (Elt F)),
    binary main_v1 main_v32 main_v33 (cmpi .slt : (⟨S800000, .i32⟩ : BufTy).Contents (Elt F) → (⟨S800000, .i32⟩ : BufTy).Contents (Elt F) → (⟨S800000, .i1⟩ : BufTy).Contents (Elt F)),
    nullary main_c_5 (constantI S_ 32 50000#32),
    unary main_c_5 main_v34 (broadcastInDim S800000 ![] bcast_S_S800000 : (⟨S_, .i32⟩ : BufTy).Contents (Elt F) → (⟨S800000, .i32⟩ : BufTy).Contents (Elt F)),
    binary main_v1 main_v34 main_v35 (addi : (⟨S800000, .i32⟩ : BufTy).Contents (Elt F) → (⟨S800000, .i32⟩ : BufTy).Contents (Elt F) → (⟨S800000, .i32⟩ : BufTy).Contents (Elt F)),
    ternary main_v33 main_v35 main_v1 main_v36 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v36 main_v37 (broadcastInDim S800000x1 ![0] bcast_S800000_S800000x1_0 : (⟨S800000, .i32⟩ : BufTy).Contents (Elt F) → (⟨S800000x1, .i32⟩ : BufTy).Contents (Elt F)),
    binary main_v31 main_v37 main_v38 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    nullary main_cst_6 (constant S_ .f32 0x00000000#32),
    unary main_cst_6 main_v39 (broadcastInDim S50000x64 ![] bcast_S_S50000x64 : (⟨S_, .f32⟩ : BufTy).Contents (Elt F) → (⟨S50000x64, .f32⟩ : BufTy).Contents (Elt F)),
    unary main_v3 main_v40 (broadcastInDim S800000x1 ![0] bcast_S800000_S800000x1_0 : (⟨S800000, .i32⟩ : BufTy).Contents (Elt F) → (⟨S800000x1, .i32⟩ : BufTy).Contents (Elt F)),
    ternary main_v39 main_v40 main_v38 main_v41 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    nullary main_cst_7 (constant S_ .f32 0x3F800000#32),
    unary main_cst_7 main_v42 (broadcastInDim S800000 ![] bcast_S_S800000 : (⟨S_, .f32⟩ : BufTy).Contents (Elt F) → (⟨S800000, .f32⟩ : BufTy).Contents (Elt F)),
    nullary main_cst_8 (constant S_ .f32 0x00000000#32),
    unary main_cst_8 main_v43 (broadcastInDim S50000 ![] bcast_S_S50000 : (⟨S_, .f32⟩ : BufTy).Contents (Elt F) → (⟨S50000, .f32⟩ : BufTy).Contents (Elt F)),
    unary main_v3 main_v44 (broadcastInDim S800000x1 ![0] bcast_S800000_S800000x1_0 : (⟨S800000, .i32⟩ : BufTy).Contents (Elt F) → (⟨S800000x1, .i32⟩ : BufTy).Contents (Elt F)),
    ternary main_v43 main_v44 main_v42 main_v45 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_9 (constant S_ .f32 0x3F800000#32),
    unary main_cst_9 main_v46 (broadcastInDim S50000 ![] bcast_S_S50000 : (⟨S_, .f32⟩ : BufTy).Contents (Elt F) → (⟨S50000, .f32⟩ : BufTy).Contents (Elt F)),
    binary main_v45 main_v46 main_v47 (maximumf : (⟨S50000, .f32⟩ : BufTy).Contents (Elt F) → (⟨S50000, .f32⟩ : BufTy).Contents (Elt F) → (⟨S50000, .f32⟩ : BufTy).Contents (Elt F)),
    unary main_v47 main_v48 (broadcastInDim S50000x1 ![0] bcast_S50000_S50000x1_0 : (⟨S50000, .f32⟩ : BufTy).Contents (Elt F) → (⟨S50000x1, .f32⟩ : BufTy).Contents (Elt F)),
    unary main_v48 main_v49 (broadcastInDim S50000x64 ![0, 1] bcast_S50000x1_S50000x64_0_1 : (⟨S50000x1, .f32⟩ : BufTy).Contents (Elt F) → (⟨S50000x64, .f32⟩ : BufTy).Contents (Elt F)),
    binary main_v41 main_v49 main_v50 (Host.divf : (⟨S50000x64, .f32⟩ : BufTy).Contents (Elt F) → (⟨S50000x64, .f32⟩ : BufTy).Contents (Elt F) → (⟨S50000x64, .f32⟩ : BufTy).Contents (Elt F)) ]
/-- The second layer and the logarithm of the softmax. -/
abbrev opsD : List (HloOp τ sig (Elt F)) :=
  [ unary main_arg5 main_v51 ((transpose S64x40 [1, 0] · transposes_S40x64_S64x40_1_0) : (⟨S40x64, .f32⟩ : BufTy).Contents (Elt F) → (⟨S64x40, .f32⟩ : BufTy).Contents (Elt F)),
    binary main_v50 main_v51 main_v52 ((fun l r => Host.dotGeneral dot_S50000x64_S64x40_S50000x40_1_0_0_1_n_n none l r) : (⟨S50000x64, .f32⟩ : BufTy).Contents (Elt F) → (⟨S64x40, .f32⟩ : BufTy).Contents (Elt F) → (⟨S50000x40, .f32⟩ : BufTy).Contents (Elt F)),
    unary main_arg6 main_v53 (broadcastInDim S1x40 ![1] bcast_S40_S1x40_1 : (⟨S40, .f32⟩ : BufTy).Contents (Elt F) → (⟨S1x40, .f32⟩ : BufTy).Contents (Elt F)),
    unary main_v53 main_v54 (broadcastInDim S50000x40 ![0, 1] bcast_S1x40_S50000x40_0_1 : (⟨S1x40, .f32⟩ : BufTy).Contents (Elt F) → (⟨S50000x40, .f32⟩ : BufTy).Contents (Elt F)),
    binary main_v52 main_v54 main_v55 (addf : (⟨S50000x40, .f32⟩ : BufTy).Contents (Elt F) → (⟨S50000x40, .f32⟩ : BufTy).Contents (Elt F) → (⟨S50000x40, .f32⟩ : BufTy).Contents (Elt F)),
    unary main_arg7 main_v56 ((transpose S64x40 [1, 0] · transposes_S40x64_S64x40_1_0) : (⟨S40x64, .f32⟩ : BufTy).Contents (Elt F) → (⟨S64x40, .f32⟩ : BufTy).Contents (Elt F)),
    binary main_v31 main_v56 main_v57 ((fun l r => Host.dotGeneral dot_S50000x64_S64x40_S50000x40_1_0_0_1_n_n none l r) : (⟨S50000x64, .f32⟩ : BufTy).Contents (Elt F) → (⟨S64x40, .f32⟩ : BufTy).Contents (Elt F) → (⟨S50000x40, .f32⟩ : BufTy).Contents (Elt F)),
    binary main_v55 main_v57 main_v58 (addf : (⟨S50000x40, .f32⟩ : BufTy).Contents (Elt F) → (⟨S50000x40, .f32⟩ : BufTy).Contents (Elt F) → (⟨S50000x40, .f32⟩ : BufTy).Contents (Elt F)),
    TRef.nullary (TRef.of (T := ⟨S_, .f32⟩) main_call1_cst) (constant S_ .f32 0xFF800000#32),
    TRef.binary (TRef.of (T := ⟨S50000x40, .f32⟩) main_v58) (TRef.of (T := ⟨S_, .f32⟩) main_call1_cst) (TRef.of (T := ⟨S50000, .f32⟩) main_call1_v0) (fun x v => Host.reduce FloatOps.maximumf x v reducesTo_S50000x40_S50000_d1 h_S_),
    TRef.nullary (TRef.of (T := ⟨S_, .f32⟩) main_call1_cst_0) (constant S_ .f32 0xFF800000#32),
    TRef.unary (TRef.of (T := ⟨S_, .f32⟩) main_call1_cst_0) (TRef.of (T := ⟨S50000, .f32⟩) main_call1_v1) (broadcastInDim S50000 ![] bcast_S_S50000),
    TRef.binary (TRef.of (T := ⟨S50000, .f32⟩) main_call1_v1) (TRef.of (T := ⟨S50000, .f32⟩) main_call1_v0) (TRef.of (T := ⟨S50000, .f32⟩) main_call1_v2) maximumf,
    TRef.unary (TRef.of (T := ⟨S50000, .f32⟩) main_call1_v2) (TRef.of (T := ⟨S50000x1, .f32⟩) main_call1_v3) (broadcastInDim S50000x1 ![0] bcast_S50000_S50000x1_0),
    TRef.unary (TRef.of (T := ⟨S50000x1, .f32⟩) main_call1_v3) (TRef.of (T := ⟨S50000x40, .f32⟩) main_call1_v4) (broadcastInDim S50000x40 ![0, 1] bcast_S50000x1_S50000x40_0_1),
    TRef.binary (TRef.of (T := ⟨S50000x40, .f32⟩) main_v58) (TRef.of (T := ⟨S50000x40, .f32⟩) main_call1_v4) (TRef.of (T := ⟨S50000x40, .f32⟩) main_call1_v5) subf,
    TRef.unary (TRef.of (T := ⟨S50000x40, .f32⟩) main_call1_v5) (TRef.of (T := ⟨S50000x40, .f32⟩) main_call1_v6) Host.exp,
    TRef.nullary (TRef.of (T := ⟨S_, .f32⟩) main_call1_cst_1) (constant S_ .f32 0x00000000#32),
    TRef.binary (TRef.of (T := ⟨S50000x40, .f32⟩) main_call1_v6) (TRef.of (T := ⟨S_, .f32⟩) main_call1_cst_1) (TRef.of (T := ⟨S50000, .f32⟩) main_call1_v7) (fun x v => Host.reduceAdd x v reducesTo_S50000x40_S50000_d1 h_S_),
    TRef.unary (TRef.of (T := ⟨S50000, .f32⟩) main_call1_v7) (TRef.of (T := ⟨S50000x1, .f32⟩) main_call1_v8) (broadcastInDim S50000x1 ![0] bcast_S50000_S50000x1_0),
    TRef.unary (TRef.of (T := ⟨S50000x1, .f32⟩) main_call1_v8) (TRef.of (T := ⟨S50000x1, .f32⟩) main_call1_v9) Host.log,
    TRef.unary (TRef.of (T := ⟨S50000x1, .f32⟩) main_call1_v9) (TRef.of (T := ⟨S50000x40, .f32⟩) main_call1_v10) (broadcastInDim S50000x40 ![0, 1] bcast_S50000x1_S50000x40_0_1),
    TRef.binary (TRef.of (T := ⟨S50000x40, .f32⟩) main_call1_v5) (TRef.of (T := ⟨S50000x40, .f32⟩) main_call1_v10) (TRef.of (T := ⟨S50000x40, .f32⟩) main_v59) subf ]

/-- The last stretch over any pair of row reductions. -/
abbrev opsDgen (Rmax Radd : (⟨S50000x40, .f32⟩ : BufTy).Contents (Elt F) → (⟨S_, .f32⟩ : BufTy).Contents (Elt F) → (⟨S50000, .f32⟩ : BufTy).Contents (Elt F)) : List (HloOp τ sig (Elt F)) :=
  [ unary main_arg5 main_v51 ((transpose S64x40 [1, 0] · transposes_S40x64_S64x40_1_0) : (⟨S40x64, .f32⟩ : BufTy).Contents (Elt F) → (⟨S64x40, .f32⟩ : BufTy).Contents (Elt F)),
    binary main_v50 main_v51 main_v52 ((fun l r => Host.dotGeneral dot_S50000x64_S64x40_S50000x40_1_0_0_1_n_n none l r) : (⟨S50000x64, .f32⟩ : BufTy).Contents (Elt F) → (⟨S64x40, .f32⟩ : BufTy).Contents (Elt F) → (⟨S50000x40, .f32⟩ : BufTy).Contents (Elt F)),
    unary main_arg6 main_v53 (broadcastInDim S1x40 ![1] bcast_S40_S1x40_1 : (⟨S40, .f32⟩ : BufTy).Contents (Elt F) → (⟨S1x40, .f32⟩ : BufTy).Contents (Elt F)),
    unary main_v53 main_v54 (broadcastInDim S50000x40 ![0, 1] bcast_S1x40_S50000x40_0_1 : (⟨S1x40, .f32⟩ : BufTy).Contents (Elt F) → (⟨S50000x40, .f32⟩ : BufTy).Contents (Elt F)),
    binary main_v52 main_v54 main_v55 (addf : (⟨S50000x40, .f32⟩ : BufTy).Contents (Elt F) → (⟨S50000x40, .f32⟩ : BufTy).Contents (Elt F) → (⟨S50000x40, .f32⟩ : BufTy).Contents (Elt F)),
    unary main_arg7 main_v56 ((transpose S64x40 [1, 0] · transposes_S40x64_S64x40_1_0) : (⟨S40x64, .f32⟩ : BufTy).Contents (Elt F) → (⟨S64x40, .f32⟩ : BufTy).Contents (Elt F)),
    binary main_v31 main_v56 main_v57 ((fun l r => Host.dotGeneral dot_S50000x64_S64x40_S50000x40_1_0_0_1_n_n none l r) : (⟨S50000x64, .f32⟩ : BufTy).Contents (Elt F) → (⟨S64x40, .f32⟩ : BufTy).Contents (Elt F) → (⟨S50000x40, .f32⟩ : BufTy).Contents (Elt F)),
    binary main_v55 main_v57 main_v58 (addf : (⟨S50000x40, .f32⟩ : BufTy).Contents (Elt F) → (⟨S50000x40, .f32⟩ : BufTy).Contents (Elt F) → (⟨S50000x40, .f32⟩ : BufTy).Contents (Elt F)),
    TRef.nullary (TRef.of (T := ⟨S_, .f32⟩) main_call1_cst) (constant S_ .f32 0xFF800000#32),
    TRef.binary (TRef.of (T := ⟨S50000x40, .f32⟩) main_v58) (TRef.of (T := ⟨S_, .f32⟩) main_call1_cst) (TRef.of (T := ⟨S50000, .f32⟩) main_call1_v0) Rmax,
    TRef.nullary (TRef.of (T := ⟨S_, .f32⟩) main_call1_cst_0) (constant S_ .f32 0xFF800000#32),
    TRef.unary (TRef.of (T := ⟨S_, .f32⟩) main_call1_cst_0) (TRef.of (T := ⟨S50000, .f32⟩) main_call1_v1) (broadcastInDim S50000 ![] bcast_S_S50000),
    TRef.binary (TRef.of (T := ⟨S50000, .f32⟩) main_call1_v1) (TRef.of (T := ⟨S50000, .f32⟩) main_call1_v0) (TRef.of (T := ⟨S50000, .f32⟩) main_call1_v2) maximumf,
    TRef.unary (TRef.of (T := ⟨S50000, .f32⟩) main_call1_v2) (TRef.of (T := ⟨S50000x1, .f32⟩) main_call1_v3) (broadcastInDim S50000x1 ![0] bcast_S50000_S50000x1_0),
    TRef.unary (TRef.of (T := ⟨S50000x1, .f32⟩) main_call1_v3) (TRef.of (T := ⟨S50000x40, .f32⟩) main_call1_v4) (broadcastInDim S50000x40 ![0, 1] bcast_S50000x1_S50000x40_0_1),
    TRef.binary (TRef.of (T := ⟨S50000x40, .f32⟩) main_v58) (TRef.of (T := ⟨S50000x40, .f32⟩) main_call1_v4) (TRef.of (T := ⟨S50000x40, .f32⟩) main_call1_v5) subf,
    TRef.unary (TRef.of (T := ⟨S50000x40, .f32⟩) main_call1_v5) (TRef.of (T := ⟨S50000x40, .f32⟩) main_call1_v6) Host.exp,
    TRef.nullary (TRef.of (T := ⟨S_, .f32⟩) main_call1_cst_1) (constant S_ .f32 0x00000000#32),
    TRef.binary (TRef.of (T := ⟨S50000x40, .f32⟩) main_call1_v6) (TRef.of (T := ⟨S_, .f32⟩) main_call1_cst_1) (TRef.of (T := ⟨S50000, .f32⟩) main_call1_v7) Radd,
    TRef.unary (TRef.of (T := ⟨S50000, .f32⟩) main_call1_v7) (TRef.of (T := ⟨S50000x1, .f32⟩) main_call1_v8) (broadcastInDim S50000x1 ![0] bcast_S50000_S50000x1_0),
    TRef.unary (TRef.of (T := ⟨S50000x1, .f32⟩) main_call1_v8) (TRef.of (T := ⟨S50000x1, .f32⟩) main_call1_v9) Host.log,
    TRef.unary (TRef.of (T := ⟨S50000x1, .f32⟩) main_call1_v9) (TRef.of (T := ⟨S50000x40, .f32⟩) main_call1_v10) (broadcastInDim S50000x40 ![0, 1] bcast_S50000x1_S50000x40_0_1),
    TRef.binary (TRef.of (T := ⟨S50000x40, .f32⟩) main_call1_v5) (TRef.of (T := ⟨S50000x40, .f32⟩) main_call1_v10) (TRef.of (T := ⟨S50000x40, .f32⟩) main_v59) subf ]

theorem opsD_eq : (opsD : List (HloOp τ sig (Elt F))) = opsDgen rowMaxOp rowSumOp := rfl

theorem ops_split : (ops : List (HloOp τ sig (Elt F))) = opsA ++ (opsB ++ (opsC ++ opsD)) := rfl

/-- Folding a line's results over two stretches in turn. -/
theorem after_append (l₁ l₂ : List (HloOp τ sig (Elt F))) (W : Valuation τ sig (Elt F)) :
    after (l₁ ++ l₂) W = after l₂ (after l₁ W) := by
  induction l₁ generalizing W with
  | nil => rfl
  | cons op l ih => exact ih _

/-! ## Each stretch from any contents `W` -/

section Stretches
variable (W : Valuation τ sig (Elt F))

theorem A_src : after opsA W (Proc.devRef .tc main_v1) = srcVec (W (Proc.devRef .tc main_arg1)) := by
  dsimp only [opsA]; after_results_simp <;> rfl
theorem A_dst : after opsA W (Proc.devRef .tc main_v3) = dstVec (W (Proc.devRef .tc main_arg1)) := by
  dsimp only [opsA]; after_results_simp <;> rfl
theorem A_mean : after opsA W (Proc.devRef .tc main_v22)
    = mean128 (W (Proc.devRef .tc main_arg0)) (srcVec (W (Proc.devRef .tc main_arg1))) (dstVec (W (Proc.devRef .tc main_arg1))) := by
  dsimp only [opsA]; after_results_simp <;> rfl
theorem A_keeps_main_arg0 : after opsA W (Proc.devRef .tc main_arg0) = W (Proc.devRef .tc main_arg0) := by
  dsimp only [opsA]; after_results_simp <;> rfl
theorem A_keeps_main_arg2 : after opsA W (Proc.devRef .tc main_arg2) = W (Proc.devRef .tc main_arg2) := by
  dsimp only [opsA]; after_results_simp <;> rfl
theorem A_keeps_main_arg3 : after opsA W (Proc.devRef .tc main_arg3) = W (Proc.devRef .tc main_arg3) := by
  dsimp only [opsA]; after_results_simp <;> rfl
theorem A_keeps_main_arg4 : after opsA W (Proc.devRef .tc main_arg4) = W (Proc.devRef .tc main_arg4) := by
  dsimp only [opsA]; after_results_simp <;> rfl
theorem A_keeps_main_arg5 : after opsA W (Proc.devRef .tc main_arg5) = W (Proc.devRef .tc main_arg5) := by
  dsimp only [opsA]; after_results_simp <;> rfl
theorem A_keeps_main_arg6 : after opsA W (Proc.devRef .tc main_arg6) = W (Proc.devRef .tc main_arg6) := by
  dsimp only [opsA]; after_results_simp <;> rfl
theorem A_keeps_main_arg7 : after opsA W (Proc.devRef .tc main_arg7) = W (Proc.devRef .tc main_arg7) := by
  dsimp only [opsA]; after_results_simp <;> rfl

theorem B_hiddenStage : after opsB W (Proc.devRef .tc main_v31)
    = hiddenStage (W (Proc.devRef .tc main_v22)) (W (Proc.devRef .tc main_arg0)) (W (Proc.devRef .tc main_arg2)) (W (Proc.devRef .tc main_arg4))
        (W (Proc.devRef .tc main_arg3)) := by
  dsimp only [opsB]; after_results_simp <;> rfl
theorem B_keeps_main_v1 : after opsB W (Proc.devRef .tc main_v1) = W (Proc.devRef .tc main_v1) := by
  dsimp only [opsB]; after_results_simp <;> rfl
theorem B_keeps_main_v3 : after opsB W (Proc.devRef .tc main_v3) = W (Proc.devRef .tc main_v3) := by
  dsimp only [opsB]; after_results_simp <;> rfl
theorem B_keeps_main_arg5 : after opsB W (Proc.devRef .tc main_arg5) = W (Proc.devRef .tc main_arg5) := by
  dsimp only [opsB]; after_results_simp <;> rfl
theorem B_keeps_main_arg6 : after opsB W (Proc.devRef .tc main_arg6) = W (Proc.devRef .tc main_arg6) := by
  dsimp only [opsB]; after_results_simp <;> rfl
theorem B_keeps_main_arg7 : after opsB W (Proc.devRef .tc main_arg7) = W (Proc.devRef .tc main_arg7) := by
  dsimp only [opsB]; after_results_simp <;> rfl

theorem C_mean : after opsC W (Proc.devRef .tc main_v50)
    = mean64 (W (Proc.devRef .tc main_v31)) (W (Proc.devRef .tc main_v1)) (W (Proc.devRef .tc main_v3)) := by
  dsimp only [opsC]; after_results_simp <;> rfl
theorem C_keeps_main_v31 : after opsC W (Proc.devRef .tc main_v31) = W (Proc.devRef .tc main_v31) := by
  dsimp only [opsC]; after_results_simp <;> rfl
theorem C_keeps_main_arg5 : after opsC W (Proc.devRef .tc main_arg5) = W (Proc.devRef .tc main_arg5) := by
  dsimp only [opsC]; after_results_simp <;> rfl
theorem C_keeps_main_arg6 : after opsC W (Proc.devRef .tc main_arg6) = W (Proc.devRef .tc main_arg6) := by
  dsimp only [opsC]; after_results_simp <;> rfl
theorem C_keeps_main_arg7 : after opsC W (Proc.devRef .tc main_arg7) = W (Proc.devRef .tc main_arg7) := by
  dsimp only [opsC]; after_results_simp <;> rfl

theorem D_gen (Rmax Radd : (⟨S50000x40, .f32⟩ : BufTy).Contents (Elt F) → (⟨S_, .f32⟩ : BufTy).Contents (Elt F) → (⟨S50000, .f32⟩ : BufTy).Contents (Elt F)) : after (opsDgen Rmax Radd) W (Proc.devRef .tc main_v59)
    = logSoftmaxG Rmax Radd (logits (W (Proc.devRef .tc main_v50)) (W (Proc.devRef .tc main_v31)) (W (Proc.devRef .tc main_arg5))
        (W (Proc.devRef .tc main_arg7)) (W (Proc.devRef .tc main_arg6))) := by
  dsimp only [opsDgen]; after_results_simp <;> rfl

theorem D_out : after opsD W (Proc.devRef .tc main_v59)
    = logSoftmax (logits (W (Proc.devRef .tc main_v50)) (W (Proc.devRef .tc main_v31)) (W (Proc.devRef .tc main_arg5)) (W (Proc.devRef .tc main_arg7))
        (W (Proc.devRef .tc main_arg6))) := by
  rw [opsD_eq, logSoftmax_eq_G]; exact D_gen W _ _

end Stretches

/-! ## The whole line -/

/-- The result of the whole line, from any contents `W`: the four stages composed. -/
theorem result_eq (W : Valuation τ sig (Elt F)) :
    after ops W (Proc.devRef .tc main_v59)
      = logSoftmax (logits
          (mean64
            (hiddenStage (mean128 (W (Proc.devRef .tc main_arg0)) (srcVec (W (Proc.devRef .tc main_arg1))) (dstVec (W (Proc.devRef .tc main_arg1))))
              (W (Proc.devRef .tc main_arg0)) (W (Proc.devRef .tc main_arg2)) (W (Proc.devRef .tc main_arg4)) (W (Proc.devRef .tc main_arg3)))
            (srcVec (W (Proc.devRef .tc main_arg1))) (dstVec (W (Proc.devRef .tc main_arg1))))
          (hiddenStage (mean128 (W (Proc.devRef .tc main_arg0)) (srcVec (W (Proc.devRef .tc main_arg1))) (dstVec (W (Proc.devRef .tc main_arg1))))
            (W (Proc.devRef .tc main_arg0)) (W (Proc.devRef .tc main_arg2)) (W (Proc.devRef .tc main_arg4)) (W (Proc.devRef .tc main_arg3)))
          (W (Proc.devRef .tc main_arg5)) (W (Proc.devRef .tc main_arg7)) (W (Proc.devRef .tc main_arg6))) := by
  rw [ops_split, after_append, after_append, after_append, D_out, C_mean, C_keeps_main_v31, C_keeps_main_arg5, C_keeps_main_arg6, C_keeps_main_arg7,
    B_hiddenStage, B_keeps_main_v1, B_keeps_main_v3, B_keeps_main_arg5, B_keeps_main_arg6, B_keeps_main_arg7,
    A_mean, A_src, A_dst, A_keeps_main_arg0, A_keeps_main_arg2, A_keeps_main_arg3, A_keeps_main_arg4, A_keeps_main_arg5, A_keeps_main_arg6,
    A_keeps_main_arg7]

end Cert.ReferenceIdeal.Stages

end
-- ==== Proof.RefIndex.lean ====
/-
  The reference's two layer stages read at an index on the extended reals. A host matrix product at `(r, j)` is the sum
  over the contracted coordinate; a bias vector made a one-row matrix and repeated along the rows reads entry `j`; a
  row vector made a column and repeated along the columns reads entry `r`; the host's maximum over a row from −∞ is the
  fold of `max` over the row, its sum from zero the sum over the row. So the first layer stage is the clamped layer of
  its operands, and the second the layer followed by the row-wise logarithm of the softmax.
-/
import proofs.«122939_j71751723647376_1_alg».proof.Proof.RefStages
import proofs.«122939_j71751723647376_1_alg».proof.Proof.Spec
import proofs.«122939_j71751723647376_1_alg».proof.Proof.LibPlainProduct
import Idealize.ShloMosaic.Lib.IdealHost
import Idealize.ShloMosaic.Lib.Pipeline.Value
import Idealize.ShloMosaic.PureOps.Reduce
import Idealize.ShloMosaic.PureOps.Ideal.Laws

noncomputable section

namespace Cert.ReferenceIdeal.Index

open Cert.ReferenceIdeal Cert.ReferenceIdeal.Gen Cert.ReferenceIdeal.Stages
open Idealize.ShloMosaic Idealize.ShloMosaic.ValueIdx

variable {α : Type}

/-- A vector made a one-row matrix and repeated along `N` rows reads, at `(r, j)`, its entry `j`. -/
theorem bias_at {N J : ℕ} (b : (⟨1, ![J]⟩ : Shape).Idx → α)
    (h1 : (⟨1, ![J]⟩ : Shape).BroadcastsInDim ⟨2, ![1, J]⟩ ![1]) (h2 : (⟨2, ![1, J]⟩ : Shape).BroadcastsInDim ⟨2, ![N, J]⟩ ![0, 1])
    (r : Fin N) (j : Fin J) :
    broadcastInDim ⟨2, ![N, J]⟩ ![0, 1] h2 (broadcastInDim ⟨2, ![1, J]⟩ ![1] h1 b) (ix2 r j) = b (ix1 j) := by
  refine (broadcastInDim_apply ![0, 1] h2 _ (ix2 r j) (ix2 (0 : Fin 1) j) fun a => ?_).trans
    (broadcastInDim_apply ![1] h1 b (ix2 (0 : Fin 1) j) (ix1 j) fun a => ?_)
  · match a with
    | ⟨0, _⟩ => show (0 : ℕ) = if (1 : ℕ) = 1 then 0 else r.val; rw [if_pos rfl]
    | ⟨1, _⟩ =>
      show j.val = if J = 1 then 0 else j.val
      split
      · have := j.isLt; omega
      · rfl
  · match a with
    | ⟨0, _⟩ =>
      show j.val = if J = 1 then 0 else j.val
      split
      · have := j.isLt; omega
      · rfl

/-- A vector made a column reads, at `(r, u)`, its entry `r`. -/
theorem col_at {N : ℕ} (v : (⟨1, ![N]⟩ : Shape).Idx → α) (h : (⟨1, ![N]⟩ : Shape).BroadcastsInDim ⟨2, ![N, 1]⟩ ![0])
    (r : Fin N) (u : Fin 1) : broadcastInDim ⟨2, ![N, 1]⟩ ![0] h v (ix2 r u) = v (ix1 r) := by
  refine broadcastInDim_apply ![0] h v (ix2 r u) (ix1 r) fun a => ?_
  match a with
  | ⟨0, _⟩ =>
    show r.val = if N = 1 then 0 else r.val
    split
    · have := r.isLt; omega
    · rfl

/-- A column repeated along `J` columns reads, at `(r, j)`, the column's entry of row `r`. -/
theorem colRep_at {N J : ℕ} (w : (⟨2, ![N, 1]⟩ : Shape).Idx → α) (h : (⟨2, ![N, 1]⟩ : Shape).BroadcastsInDim ⟨2, ![N, J]⟩ ![0, 1])
    (r : Fin N) (j : Fin J) : broadcastInDim ⟨2, ![N, J]⟩ ![0, 1] h w (ix2 r j) = w (ix2 r (0 : Fin 1)) := by
  refine broadcastInDim_apply ![0, 1] h w (ix2 r j) (ix2 r (0 : Fin 1)) fun a => ?_
  match a with
  | ⟨0, _⟩ =>
    show r.val = if N = 1 then 0 else r.val
    split
    · have := r.isLt; omega
    · rfl
  | ⟨1, _⟩ => show (0 : ℕ) = if (1 : ℕ) = 1 then 0 else j.val; rw [if_pos rfl]

/-- The first layer stage is the clamped layer of its operands, the weights transposed. -/
theorem hiddenStage_eq (a x : (⟨S50000x128, .f32⟩ : BufTy).Contents (Elt Ideal)) (wl wr : (⟨S64x128, .f32⟩ : BufTy).Contents (Elt Ideal)) (b : (⟨S64, .f32⟩ : BufTy).Contents (Elt Ideal)) :
    hiddenStage (F := Ideal) a x wl wr b
      = Sage.layerRelu a x (transpose S128x64 [1, 0] wl transposes_S64x128_S128x64_1_0) (transpose S128x64 [1, 0] wr transposes_S64x128_S128x64_1_0) b := by
  funext i
  obtain ⟨r, j, rfl⟩ : ∃ (r : Fin 50000) (j : Fin 64), i = ix2 r j := ⟨i 0, i 1, eq_ix2 i⟩
  rw [Sage.layerRelu_at]
  unfold hiddenStage Sage.lin
  refine (maximumf_apply _ _ (ix2 r j)).trans ?_
  refine congrArg₂ max ?_ (broadcastInDim_scalar_apply _ _ _)
  refine (addf_apply _ _ (ix2 r j)).trans ?_
  refine congrArg₂ (· + ·) ?_ (PlainProduct.dotGeneral_at _ rfl none x _ r j)
  refine (addf_apply _ _ (ix2 r j)).trans ?_
  exact congrArg₂ (· + ·) (PlainProduct.dotGeneral_at _ rfl none a _ r j) (bias_at b _ _ r j)

/-- The second layer's linear stage at `(r, j)`. -/
theorem logits_at (a h : (⟨S50000x64, .f32⟩ : BufTy).Contents (Elt Ideal)) (wl wr : (⟨S40x64, .f32⟩ : BufTy).Contents (Elt Ideal)) (b : (⟨S40, .f32⟩ : BufTy).Contents (Elt Ideal)) (r : Fin 50000) (j : Fin 40) :
    logits (F := Ideal) a h wl wr b (ix2 r j)
      = Sage.lin a h (transpose S64x40 [1, 0] wl transposes_S40x64_S64x40_1_0) (transpose S64x40 [1, 0] wr transposes_S40x64_S64x40_1_0) b r j := by
  unfold logits Sage.lin
  refine (addf_apply _ _ (ix2 r j)).trans ?_
  refine congrArg₂ (· + ·) ?_ (PlainProduct.dotGeneral_at _ rfl none h _ r j)
  refine (addf_apply _ _ (ix2 r j)).trans ?_
  exact congrArg₂ (· + ·) (PlainProduct.dotGeneral_at _ rfl none a _ r j) (bias_at b _ _ r j)

/-- The host's maximum over a row from −∞ is the fold of `max` over the row from −∞. -/
theorem rowMax_at (u : (⟨S50000x40, .f32⟩ : BufTy).Contents (Elt Ideal)) (r : Fin 50000) :
    Host.reduce FloatOps.maximumf u (constant (F := Ideal) S_ .f32 0xFF800000#32) reducesTo_S50000x40_S50000_d1 h_S_ (ix1 r)
      = (Finset.univ : Finset (Fin 40)).fold max Sage.negInf (fun j => u (ix2 r j)) := by
  have hR : S50000x40.Reduces [1] S50000 := by decide
  refine (Host.reduce_eq_fold_single (FloatOps.maximumf (F := Ideal) (φ := .f32)) u (constant (F := Ideal) S_ .f32 0xFF800000#32)
    reducesTo_S50000x40_S50000_d1 hR h_S_ (ix1 r)).trans ?_
  have hf : (u ∘ hR.lift (ix1 r)) = fun k : Fin 40 => u (ix2 r k) :=
    funext fun k => congrArg u (funext fun c => Fin.ext (by match c with | ⟨0, _⟩ => rfl | ⟨1, _⟩ => rfl))
  exact congrArg (fun f => Finset.fold max (Ideal.ofBits .f32 0xFF800000#32) f (Finset.univ : Finset (Fin 40))) hf

/-- A row's top: the larger of −∞ and the host's maximum over the row from −∞. -/
theorem top_at (u : (⟨S50000x40, .f32⟩ : BufTy).Contents (Elt Ideal)) (r : Fin 50000) :
    maximumf (broadcastInDim S50000 ![] bcast_S_S50000 (constant (F := Ideal) S_ .f32 0xFF800000#32))
        (Host.reduce FloatOps.maximumf u (constant (F := Ideal) S_ .f32 0xFF800000#32) reducesTo_S50000x40_S50000_d1 h_S_) (ix1 r)
      = Sage.rowTop (fun j => u (ix2 r j)) := by
  unfold Sage.rowTop
  refine (maximumf_apply _ _ (ix1 r)).trans ?_
  exact congrArg₂ max (broadcastInDim_scalar_apply _ _ _) (rowMax_at u r)

/-- A shifted entry. -/
theorem shifted_at (u : (⟨S50000x40, .f32⟩ : BufTy).Contents (Elt Ideal)) (r : Fin 50000) (j : Fin 40) :
    shifted (F := Ideal) u (ix2 r j) = u (ix2 r j) - Sage.rowTop (fun j => u (ix2 r j)) := by
  unfold shifted
  refine (subf_apply _ _ (ix2 r j)).trans ?_
  refine congrArg (u (ix2 r j) - ·) ?_
  exact (colRep_at _ _ r j).trans ((col_at _ _ r 0).trans (top_at u r))

/-- The host's sum over a row from zero is the sum over the row. -/
theorem rowSum_at (w : (⟨S50000x40, .f32⟩ : BufTy).Contents (Elt Ideal)) (r : Fin 50000) :
    Host.reduceAdd w (constant (F := Ideal) S_ .f32 0x00000000#32) reducesTo_S50000x40_S50000_d1 h_S_ (ix1 r) = ∑ k : Fin 40, w (ix2 r k) := by
  have hR : S50000x40.Reduces [1] S50000 := by decide
  refine (hostReduceAdd_apply w _ reducesTo_S50000x40_S50000_d1 h_S_ (ix1 r)).trans ?_
  refine (Ideal.hostReduceAdd_single reducesTo_S50000x40_S50000_d1 hR w _ (ix1 r)).trans ?_
  rw [show (constant (F := Ideal) S_ .f32 0x00000000#32) (Shape.Idx.first h_S_) = 0 from Ideal.ofBits_zero_f32, zero_add]
  exact Finset.sum_congr rfl fun k _ => congrArg w (funext fun c => Fin.ext (by match c with | ⟨0, _⟩ => rfl | ⟨1, _⟩ => rfl))

/-- The host's exponential and logarithm are pointwise. -/
theorem hostExp_at {T : Shape} (w : FVec Ideal T .f32) (i : T.Idx) : Host.exp w i = Ideal.exp (w i) := rfl
theorem hostLog_at {T : Shape} (w : FVec Ideal T .f32) (i : T.Idx) : Host.log w i = Ideal.log (w i) := rfl

/-- The row-wise logarithm of the softmax at `(r, j)` is that of row `r`, at `j`. -/
theorem logSoftmax_at (u : (⟨S50000x40, .f32⟩ : BufTy).Contents (Elt Ideal)) (r : Fin 50000) (j : Fin 40) :
    logSoftmax (F := Ideal) u (ix2 r j) = Sage.lsmRow (fun j' => u (ix2 r j')) j := by
  unfold logSoftmax Sage.lsmRow
  refine (subf_apply _ _ (ix2 r j)).trans ?_
  refine congrArg₂ (· - ·) (shifted_at u r j) ?_
  refine (colRep_at _ _ r j).trans ?_
  refine (hostLog_at _ _).trans (congrArg Ideal.log ?_)
  refine (col_at _ _ r 0).trans ?_
  refine (rowSum_at _ r).trans ?_
  exact Finset.sum_congr rfl fun k _ => (hostExp_at _ _).trans (congrArg Ideal.exp (shifted_at u r k))

/-- The second layer stage with the logarithm of the softmax is the whole-array function of its operands. -/
theorem out_eq (a h : (⟨S50000x64, .f32⟩ : BufTy).Contents (Elt Ideal)) (wl wr : (⟨S40x64, .f32⟩ : BufTy).Contents (Elt Ideal)) (b : (⟨S40, .f32⟩ : BufTy).Contents (Elt Ideal)) :
    logSoftmax (F := Ideal) (logits a h wl wr b)
      = Sage.layerLsm a h (transpose S64x40 [1, 0] wl transposes_S40x64_S64x40_1_0) (transpose S64x40 [1, 0] wr transposes_S40x64_S64x40_1_0) b := by
  funext i
  obtain ⟨r, j, rfl⟩ : ∃ (r : Fin 50000) (j : Fin 40), i = ix2 r j := ⟨i 0, i 1, eq_ix2 i⟩
  rw [Sage.layerLsm_at, logSoftmax_at]
  exact congrArg (Sage.lsmRow · j) (funext fun j' => logits_at a h wl wr b r j')

end Cert.ReferenceIdeal.Index

end
-- ==== Proof.RefRun.lean ====
/-
  The reference's result as one function of its eight arguments, and its run. The straight line of host operations
  ends with the result buffer at the composition of its four stages; read at an index, the two layer stages are the
  clamped layer and the layer followed by the row-wise logarithm of the softmax, so the result is the same shape of
  function of the arguments as the kernel's: the second layer of the mean of the first layer's output and of that output.
-/
import proofs.«122939_j71751723647376_1_alg».proof.Proof.RefStages
import proofs.«122939_j71751723647376_1_alg».proof.Proof.RefIndex

noncomputable section

namespace Cert.ReferenceIdeal.Whole

open Cert.ReferenceIdeal Cert.ReferenceIdeal.Gen Cert.ReferenceIdeal.Stages
open Idealize.ShloMosaic Idealize.ShloMosaic.TcCoe Idealize.SL.Sem Idealize.ShloMosaic.StableHlo

/-- The first layer's output, from the features, the edge list, the two weight matrices and the bias. -/
def hiddenR (x : (⟨S50000x128, .f32⟩ : BufTy).Contents (Elt Ideal)) (e : (⟨S2x800000, .i32⟩ : BufTy).Contents (Elt Ideal)) (wl wr : (⟨S64x128, .f32⟩ : BufTy).Contents (Elt Ideal)) (b : (⟨S64, .f32⟩ : BufTy).Contents (Elt Ideal)) :
    S50000x64.Idx → EReal :=
  Sage.layerRelu (mean128 x (srcVec e) (dstVec e)) x (transpose S128x64 [1, 0] wl transposes_S64x128_S128x64_1_0)
    (transpose S128x64 [1, 0] wr transposes_S64x128_S128x64_1_0) b

/-- The program's result, from its eight arguments. -/
def outR (x : (⟨S50000x128, .f32⟩ : BufTy).Contents (Elt Ideal)) (e : (⟨S2x800000, .i32⟩ : BufTy).Contents (Elt Ideal)) (w1l : (⟨S64x128, .f32⟩ : BufTy).Contents (Elt Ideal)) (b1 : (⟨S64, .f32⟩ : BufTy).Contents (Elt Ideal))
    (w1r : (⟨S64x128, .f32⟩ : BufTy).Contents (Elt Ideal)) (w2l : (⟨S40x64, .f32⟩ : BufTy).Contents (Elt Ideal)) (b2 : (⟨S40, .f32⟩ : BufTy).Contents (Elt Ideal)) (w2r : (⟨S40x64, .f32⟩ : BufTy).Contents (Elt Ideal)) : S50000x40.Idx → EReal :=
  Sage.layerLsm (mean64 (hiddenR x e w1l w1r b1) (srcVec e) (dstVec e)) (hiddenR x e w1l w1r b1)
    (transpose S64x40 [1, 0] w2l transposes_S40x64_S64x40_1_0) (transpose S64x40 [1, 0] w2r transposes_S40x64_S64x40_1_0) b2

/-- The line's result from the launch contents is that function of the arguments. -/
theorem result_value (m : (ℓ : Loc nD τ sig) → Buf (Elt Ideal) ℓ) (c : Dev nD) :
    after ops (launchContents m c) (Proc.devRef .tc main_v59)
      = outR (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  refine (result_eq (launchContents m c)).trans ?_
  rw [Index.out_eq, Index.hiddenStage_eq]
  rfl

set_option maxRecDepth 8192 in
set_option maxHeartbeats 4000000 in
/-- From any memory with zero counters every weakly fair execution of the reference's @main terminates with the result
    buffer at that function of the arguments, and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v59)
        = outR (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v59).trans (result_value m c),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl),
      (h c main_arg7).trans (by after_results_simp <;> rfl)⟩)
    (run_seq scopedRefs_eq scopedSems_eq defs main (fun _ => ops) main_eq (fun _ => ops_sub) m ρ)

end Cert.ReferenceIdeal.Whole

end
-- ==== Proof.Bridge.lean ====
/-
  The two results are one function. The kernel's program and the reference apply the same host operations to get the
  edges' endpoints and the neighbours' means, transpose the same weight matrices, and — the one difference left after
  each side is read at an index — the kernel carries each bias as the single row of a one-row matrix where the
  reference carries the vector itself; that row read at column `j` is the vector's entry `j`.
-/
import proofs.«122939_j71751723647376_1_alg».proof.Proof.KValue
import proofs.«122939_j71751723647376_1_alg».proof.Proof.RefRun
import Idealize.ShloMosaic.Lib.ValueLayout

noncomputable section

namespace Cert.Proof.Bridge

open Idealize.ShloMosaic Idealize.ShloMosaic.ValueIdx

/-- A vector made a one-row matrix, its row read column by column, is the vector. -/
theorem bias_row {J : ℕ} (b : (⟨1, ![J]⟩ : Shape).Idx → EReal) (h : (⟨1, ![J]⟩ : Shape).ShapeCasts ⟨2, ![1, J]⟩) :
    (fun j : (⟨1, ![J]⟩ : Shape).Idx => shapeCast ⟨2, ![1, J]⟩ b h (ix2 (0 : Fin 1) (j 0))) = b :=
  funext fun j => (shapeCast_a_1a_apply b h 0 (j 0)).trans (congrArg b (eq_ix1 j).symm)

theorem src_eq (e : (⟨Cert.KernelIdeal.S2x800000, .i32⟩ : BufTy).Contents (Elt Ideal)) :
    Cert.KernelIdeal.HostSide.srcVec (F := Ideal) e = Cert.ReferenceIdeal.Stages.srcVec (F := Ideal) e := rfl
theorem dst_eq (e : (⟨Cert.KernelIdeal.S2x800000, .i32⟩ : BufTy).Contents (Elt Ideal)) :
    Cert.KernelIdeal.HostSide.dstVec (F := Ideal) e = Cert.ReferenceIdeal.Stages.dstVec (F := Ideal) e := rfl
theorem mean128_eq (x : (⟨Cert.KernelIdeal.S50000x128, .f32⟩ : BufTy).Contents (Elt Ideal))
    (s d : (⟨Cert.KernelIdeal.S800000, .i32⟩ : BufTy).Contents (Elt Ideal)) :
    Cert.KernelIdeal.HostSide.mean128 (F := Ideal) x s d = Cert.ReferenceIdeal.Stages.mean128 (F := Ideal) x s d := rfl
theorem mean64_eq (x : (⟨Cert.KernelIdeal.S50000x64, .f32⟩ : BufTy).Contents (Elt Ideal))
    (s d : (⟨Cert.KernelIdeal.S800000, .i32⟩ : BufTy).Contents (Elt Ideal)) :
    Cert.KernelIdeal.HostSide.mean64 (F := Ideal) x s d = Cert.ReferenceIdeal.Stages.mean64 (F := Ideal) x s d := rfl

/-- The first layer's output is the same function of the arguments on both sides. -/
theorem hidden_eq (x : (⟨Cert.KernelIdeal.S50000x128, .f32⟩ : BufTy).Contents (Elt Ideal))
    (e : (⟨Cert.KernelIdeal.S2x800000, .i32⟩ : BufTy).Contents (Elt Ideal))
    (wl wr : (⟨Cert.KernelIdeal.S64x128, .f32⟩ : BufTy).Contents (Elt Ideal)) (b : (⟨Cert.KernelIdeal.S64, .f32⟩ : BufTy).Contents (Elt Ideal)) :
    Cert.KernelIdeal.Whole.hiddenK x e wl wr b = Cert.ReferenceIdeal.Whole.hiddenR x e wl wr b := by
  unfold Cert.KernelIdeal.Whole.hiddenK Cert.ReferenceIdeal.Whole.hiddenR
  rw [bias_row, src_eq, dst_eq, mean128_eq]

/-- The program's result is the same function of the arguments on both sides. -/
theorem out_eq (x : (⟨Cert.KernelIdeal.S50000x128, .f32⟩ : BufTy).Contents (Elt Ideal))
    (e : (⟨Cert.KernelIdeal.S2x800000, .i32⟩ : BufTy).Contents (Elt Ideal))
    (w1l : (⟨Cert.KernelIdeal.S64x128, .f32⟩ : BufTy).Contents (Elt Ideal)) (b1 : (⟨Cert.KernelIdeal.S64, .f32⟩ : BufTy).Contents (Elt Ideal))
    (w1r : (⟨Cert.KernelIdeal.S64x128, .f32⟩ : BufTy).Contents (Elt Ideal)) (w2l : (⟨Cert.KernelIdeal.S40x64, .f32⟩ : BufTy).Contents (Elt Ideal))
    (b2 : (⟨Cert.KernelIdeal.S40, .f32⟩ : BufTy).Contents (Elt Ideal)) (w2r : (⟨Cert.KernelIdeal.S40x64, .f32⟩ : BufTy).Contents (Elt Ideal)) :
    Cert.KernelIdeal.Whole.outK x e w1l b1 w1r w2l b2 w2r = Cert.ReferenceIdeal.Whole.outR x e w1l b1 w1r w2l b2 w2r := by
  unfold Cert.KernelIdeal.Whole.outK Cert.ReferenceIdeal.Whole.outR
  rw [bias_row, hidden_eq, src_eq, dst_eq, mean64_eq]

end Cert.Proof.Bridge

end
-- ==== Proof.lean ====
/-
  A two-layer graph network with mean aggregation (each node's new features are a linear map of the mean of its
  in-neighbours' features plus a linear map of its own, with a bias), the first layer clamped below at zero and the
  second followed by the row-wise logarithm of the softmax. The kernel's program keeps the gathers and scatter-adds on
  the host and runs each layer's linear part and its pointwise tail in a pipelined region over ten blocks of 5000 nodes;
  the reference does everything on the host. On the extended reals both compute the same function of the eight
  arguments: a change of float format is the identity, a block's matrix product is the rows' part of the whole
  product, and the only algebra is that a sum of three terms does not depend on the order of its additions. The
  precondition is never opened.

  The three frames: the two kernel programs' are the generated frame certificates; the reference's is its run with the
  result dropped. The idealization rewrote nothing. The value claim: the kernel's run with its result named
  (Proof/KRun.lean, Proof/KValue.lean), the reference's (Proof/RefRun.lean), and the two named functions equal
  (Proof/Bridge.lean).
-/
import proofs.«122939_j71751723647376_1_alg».proof.Defs
import proofs.«122939_j71751723647376_1_alg».proof.Proof.Gen.Kernel
import proofs.«122939_j71751723647376_1_alg».proof.Proof.Gen.Kernel.Frame
import proofs.«122939_j71751723647376_1_alg».proof.Proof.Gen.KernelIdeal
import proofs.«122939_j71751723647376_1_alg».proof.Proof.Gen.KernelIdeal.Frame
import proofs.«122939_j71751723647376_1_alg».proof.Proof.Gen.ReferenceIdeal
import proofs.«122939_j71751723647376_1_alg».proof.Proof.Gen.Pre_finite_inputs
import proofs.«122939_j71751723647376_1_alg».proof.Proof.KValue
import proofs.«122939_j71751723647376_1_alg».proof.Proof.RefRun
import proofs.«122939_j71751723647376_1_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Whole.run m ρ)

/-- From memories agreeing on the arguments both programs end with the result at one function of the arguments. -/
theorem algebraic : Cert.algebraic_KernelIdeal_ReferenceIdeal := by
  intro m ρ m' ρ' _ hagree
  refine ⟨fun c => Cert.KernelIdeal.Whole.outK (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    Cert.KernelIdeal.Whole.run m ρ, ?_⟩
  refine (θ_run Cert.ReferenceIdeal.defs _ _).mono (fun _ h c => ⟨(h c).1.trans ?_, (h c).2⟩) (Cert.ReferenceIdeal.Whole.run m' ρ')
  obtain ⟨a0, a1, a2, a3, a4, a5, a6, a7⟩ := hagree c
  rw [a0, a1, a2, a3, a4, a5, a6, a7]
  exact (Cert.Proof.Bridge.out_eq _ _ _ _ _ _ _ _).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
